-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x800000 : Shape := ⟨2, ![2, 800000]⟩
abbrev S1024 : Shape := ⟨1, ![1024]⟩
abbrev S4096x128 : Shape := ⟨2, ![4096, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x4096 : Shape := ⟨2, ![128, 4096]⟩
abbrev S4096 : Shape := ⟨1, ![4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x4096 : S_.BroadcastsInDim S128x4096 (![] : Fin 0 → Fin S128x4096.rank)
  reducesTo_S128x4096_S_d0_1 : S128x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg7 : FVec F S128 .f32) (main_arg8 : FVec F S128x4096 .f32) (main_arg9 : FVec F S4096 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x4096 .f32 := Host.absf main_arg8
  let main_cst_8 : FVec F S_ .f32 := constant S_ .f32 0x7F800000#32
  let main_v25 : FVec F S128x4096 .f32 := broadcastInDim S128x4096 ![] bcast_S_S128x4096 main_cst_8
  let main_v26 : IVec S128x4096 1 := cmpf .olt main_v24 main_v25
  let main_c_9 : IVec S_ 1 := constantI S_ 1 1#1
  let main_v27 : IVec S_ 1 := (fun x v => Host.reduce IntOp.andi x v reducesTo_S128x4096_S_d0_1 h_S_) main_v26 main_c_9
  let main_v28 : IVec S_ 1 := andi main_v23 main_v27
  let main_v29 : FVec F S4096 .f32 := Host.absf main_arg9
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : IVec S50000x1 32) (main_arg1 : IVec S2x800000 32) (main_arg2 : IVec S1024 32) (main_arg3 : FVec F S4096x128 .f32) (main_arg4 : FVec F S128x256 .f32) (main_arg5 : FVec F S256 .f32) (main_arg6 : FVec F S256x128 .f32) (main_arg7 : FVec F S128 .f32) (main_arg8 : FVec F S128x4096 .f32) (main_arg9 : FVec F S4096 .f32) : IVec S_ 1 :=
  let main_v0 : FVec F S4096x128 .f32 := Host.absf main_arg3
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_v13 main_v16
-- ==== Kernel.lean ====
abbrev S50000x1 : Shape := ⟨2, ![50000, 1]⟩
abbrev S2x800000 : Shape := ⟨2, ![2, 800000]⟩
abbrev S1024 : Shape := ⟨1, ![1024]⟩
abbrev S4096x128 : Shape := ⟨2, ![4096, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x4096 : Shape := ⟨2, ![128, 4096]⟩
abbrev S4096 : Shape := ⟨1, ![4096]⟩
abbrev S50000 : Shape := ⟨1, ![50000]⟩
abbrev S_ : Shape := ⟨0, ![]⟩
abbrev S50000x128 : Shape := ⟨2, ![50000, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S1024x1 : Shape := ⟨2, ![1024, 1]⟩
abbrev S1024x128 : Shape := ⟨2, ![1024, 128]⟩
abbrev S1x4096 : Shape := ⟨2, ![1, 4096]⟩

abbrev nBuf : Space → Nat
  | .hbm => 120
  | .vmem => 14
  | .smem => 0
  | _ => 0

abbrev bufTy : (tb : Table) → Fin (tcTables nBuf tb) → BufTy
  | .hbm, ⟨0, _⟩ => ⟨S50000x1, .i32⟩
  | .hbm, ⟨1, _⟩ => ⟨S2x800000, .i32⟩
  | .hbm, ⟨2, _⟩ => ⟨S1024, .i32⟩
  | .hbm, ⟨3, _⟩ => ⟨S4096x128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x4096, .f32⟩
  | .hbm, ⟨9, _⟩ => ⟨S4096, .f32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S50000, .i32⟩
  | .hbm, ⟨25, _⟩ => ⟨S850000, .i32⟩
  | .hbm, ⟨26, _⟩ => ⟨S850000, .i32⟩
  | .hbm, ⟨27, _⟩ => ⟨S_, .f32⟩
  | .hbm, ⟨28, _⟩ => ⟨S850000, .f32⟩
  | .hbm, ⟨29, _⟩ => ⟨S_, .f32⟩
  | .hbm, ⟨30, _⟩ => ⟨S50000, .f32⟩
  | .hbm, ⟨31, _⟩ => ⟨S850000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000, .f32⟩
  | .hbm, ⟨59, _⟩ => ⟨S850000, .f32⟩
  | .hbm, ⟨60, _⟩ => ⟨S50000x256, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x256, .f32⟩
  | .hbm, ⟨70, _⟩ => ⟨S850000x1, .f32⟩
  | .hbm, ⟨71, _⟩ => ⟨S850000x256, .f32⟩
  | .hbm, ⟨72, _⟩ => ⟨S850000x256, .f32⟩
  | .hbm, ⟨73, _⟩ => ⟨S_, .f32⟩
  | .hbm, ⟨74, _⟩ => ⟨S50000x256, .f32⟩
  | .hbm, ⟨75, _⟩ => ⟨S850000x1, .i32⟩
  | .hbm, ⟨76, _⟩ => ⟨S50000x256, .f32⟩
  | .hbm, ⟨77, _⟩ => ⟨S1x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S50000x128, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x128, .f32⟩
  | .hbm, ⟨93, _⟩ => ⟨S850000x1, .f32⟩
  | .hbm, ⟨94, _⟩ => ⟨S850000x128, .f32⟩
  | .hbm, ⟨95, _⟩ => ⟨S850000x128, .f32⟩
  | .hbm, ⟨96, _⟩ => ⟨S_, .f32⟩
  | .hbm, ⟨97, _⟩ => ⟨S50000x128, .f32⟩
  | .hbm, ⟨98, _⟩ => ⟨S850000x1, .i32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .i32⟩
  | .hbm, ⟨104, _⟩ => ⟨S1024, .i32⟩
  | .hbm, ⟨105, _⟩ => ⟨S1024, .i1⟩
  | .hbm, ⟨106, _⟩ => ⟨S_, .i32⟩
  | .hbm, ⟨107, _⟩ => ⟨S1024, .i32⟩
  | .hbm, ⟨108, _⟩ => ⟨S1024, .i32⟩
  | .hbm, ⟨109, _⟩ => ⟨S1024, .i32⟩
  | .hbm, ⟨110, _⟩ => ⟨S1024x1, .i32⟩
  | .hbm, ⟨111, _⟩ => ⟨S1024x128, .f32⟩
  | .hbm, ⟨112, _⟩ => ⟨S_, .f32⟩
  | .hbm, ⟨113, _⟩ => ⟨S128, .f32⟩
  | .hbm, ⟨114, _⟩ => ⟨S1x128, .f32⟩
  | .hbm, ⟨115, _⟩ => ⟨S_, .f32⟩
  | .hbm, ⟨116, _⟩ => ⟨S1x128, .f32⟩
  | .hbm, ⟨117, _⟩ => ⟨S1x128, .f32⟩
  | .hbm, ⟨118, _⟩ => ⟨S1x4096, .f32⟩
  | .hbm, ⟨119, _⟩ => ⟨S1x4096, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S128x4096, .f32⟩
  | .local _ .vmem, ⟨12, _⟩ => ⟨S1x4096, .f32⟩
  | .local _ .vmem, ⟨13, _⟩ => ⟨S1x4096, .f32⟩
  | _, _ => ⟨S50000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_16 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1024 : S_.BroadcastsInDim S1024 (![] : Fin 0 → Fin S1024.rank)
  bcast_S1024_S1024x1_0 : S1024.BroadcastsInDim S1024x1 (![0] : Fin 1 → Fin S1024x1.rank)
  reducesTo_S1024x128_S128_d0 : S1024x128.ReducesTo [0] S128
  h_S_ : 0 < S_.numel
  bcast_S_S1x128 : S_.BroadcastsInDim S1x128 (![] : Fin 0 → Fin S1x128.rank)
  shapeCasts_S4096_S1x4096 : S4096.ShapeCasts S1x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x4096_S128x4096_0_0 : ∀ a, (![0, 0] : Fin 2 → Nat) a + S128x4096.size a ≤ S128x4096.size a
  h_S128x4096 : 0 < S128x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  gather_S4096x128_S50000x1_S50000x128_1_0_n_n_0_1_1128_wf : GatherDims.WF S4096x128 S50000x1 S50000x128 [1] [0] [] [0] [] 1 ![1, 128]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S1024x1_S1024x128_1_0_n_n_0_1_1128_wf : GatherDims.WF S50000x128 S1024x1 S1024x128 [1] [0] [] [0] [] 1 ![1, 128]
  dot_S1x128_S128x4096_S1x4096_1_0_0_1_n_n_wf : DotDims.WF S1x128 S128x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x128.size a ≤ S1x128.size a
  hwx2_0 : ∀ i : grid2.Coords, EltTy.bits .f32 = 32 ∨ (Rect.block (s := S1x128) S1x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x4096.size a ≤ S128x4096.size a
  hwx2_1 : ∀ i : grid2.Coords, EltTy.bits .f32 = 32 ∨ (Rect.block (s := S128x4096) S128x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4096.size a ≤ S1x4096.size a
  hwx2_3 : ∀ i : grid2.Coords, EltTy.bits .f32 = 32 ∨ (Rect.block (s := S1x4096) S1x4096.size (cc2_transform_3 i) (hinb2_3 i)).WholeWords (EltTy.packing .f32)

variable [Facts₀]

def gather_S4096x128_S50000x1_S50000x128_1_0_n_n_0_1_1128 : GatherDims S4096x128 S50000x1 S50000x128 where
  offsetDims := [1]
  collapsedSliceDims := [0]
  operandBatchingDims := []
  startIndicesBatchingDims := []
  startIndexMap := [0]
  indexVectorDim := 1
  sliceSizes := ![1, 128]
  wf := gather_S4096x128_S50000x1_S50000x128_1_0_n_n_0_1_1128_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S1024x1_S1024x128_1_0_n_n_0_1_1128 : GatherDims S50000x128 S1024x1 S1024x128 where
  offsetDims := [1]
  collapsedSliceDims := [0]
  operandBatchingDims := []
  startIndicesBatchingDims := []
  startIndexMap := [0]
  indexVectorDim := 1
  sliceSizes := ![1, 128]
  wf := gather_S50000x128_S1024x1_S1024x128_1_0_n_n_0_1_1128_wf
def dot_S1x128_S128x4096_S1x4096_1_0_0_1_n_n : DotDims S1x128 S128x4096 S1x4096 where
  lhsContracting := [1]
  rhsContracting := [0]
  lhsNonContracting := [0]
  rhsNonContracting := [1]
  lhsBatch := []
  rhsBatch := []
  wf := dot_S1x128_S128x4096_S1x4096_1_0_0_1_n_n_wf

abbrev win0_0 : Pipeline.Window sig grid0 :=
  Pipeline.Window.ofSpec (Memref.whole main_v7) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v83) S1x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S1x4096.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x1 : Shape := ⟨2, ![50000, 1]⟩
abbrev S2x800000 : Shape := ⟨2, ![2, 800000]⟩
abbrev S1024 : Shape := ⟨1, ![1024]⟩
abbrev S4096x128 : Shape := ⟨2, ![4096, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x4096 : Shape := ⟨2, ![128, 4096]⟩
abbrev S4096 : Shape := ⟨1, ![4096]⟩
abbrev S50000 : Shape := ⟨1, ![50000]⟩
abbrev S_ : Shape := ⟨0, ![]⟩
abbrev S50000x128 : Shape := ⟨2, ![50000, 128]⟩
abbrev S50000x256 : Shape := ⟨2, ![50000, 256]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S50000x4096 : Shape := ⟨2, ![50000, 4096]⟩
abbrev S1x4096 : Shape := ⟨2, ![1, 4096]⟩
abbrev S1024x1 : Shape := ⟨2, ![1024, 1]⟩
abbrev S1024x4096 : Shape := ⟨2, ![1024, 4096]⟩

abbrev nBuf : Space → Nat
  | .hbm => 162
  | .vmem => 0
  | .smem => 0
  | _ => 0

abbrev hbmTy0_0 (i : Nat) : BufTy := match i % 128 with
  | 0 => ⟨S50000x1, .i32⟩
  | 1 => ⟨S2x800000, .i32⟩
  | 2 => ⟨S1024, .i32⟩
  | 3 => ⟨S4096x128, .f32⟩
  | 4 => ⟨S128x256, .f32⟩
  | 5 => ⟨S256, .f32⟩
  | 6 => ⟨S256x128, .f32⟩
  | 7 => ⟨S128, .f32⟩
  | 8 => ⟨S128x4096, .f32⟩
  | 9 => ⟨S4096, .f32⟩
  | 10 => ⟨S50000, .i32⟩
  | 11 => ⟨S_, .i32⟩
  | 12 => ⟨S50000, .i32⟩
  | 13 => ⟨S50000, .i1⟩
  | 14 => ⟨S_, .i32⟩
  | 15 => ⟨S50000, .i32⟩
  | 16 => ⟨S50000, .i32⟩
  | 17 => ⟨S50000, .i32⟩
  | 18 => ⟨S50000x1, .i32⟩
  | 19 => ⟨S50000x128, .f32⟩
  | 20 => ⟨S50000x256, .f32⟩
  | 21 => ⟨S1x800000, .i32⟩
  | 22 => ⟨S800000, .i32⟩
  | 23 => ⟨S1x800000, .i32⟩
  | 24 => ⟨S800000, .i32⟩
  | 25 => ⟨S50000, .i32⟩
  | 26 => ⟨S850000, .i32⟩
  | 27 => ⟨S850000, .i32⟩
  | 28 => ⟨S_, .f32⟩
  | 29 => ⟨S850000, .f32⟩
  | 30 => ⟨S_, .f32⟩
  | 31 => ⟨S50000, .f32⟩
  | 32 => ⟨S850000x1, .i32⟩
  | 33 => ⟨S50000, .f32⟩
  | 34 => ⟨S_, .f32⟩
  | 35 => ⟨S50000, .f32⟩
  | 36 => ⟨S50000, .i1⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x256, .f32⟩
  | 70 => ⟨S850000x1, .f32⟩
  | 71 => ⟨S850000x256, .f32⟩
  | 72 => ⟨S850000x256, .f32⟩
  | 73 => ⟨S_, .f32⟩
  | 74 => ⟨S50000x256, .f32⟩
  | 75 => ⟨S850000x1, .i32⟩
  | 76 => ⟨S50000x256, .f32⟩
  | 77 => ⟨S1x256, .f32⟩
  | 78 => ⟨S50000x256, .f32⟩
  | 79 => ⟨S50000x256, .f32⟩
  | 80 => ⟨S_, .f32⟩
  | 81 => ⟨S50000x256, .f32⟩
  | 82 => ⟨S50000x256, .f32⟩
  | 83 => ⟨S50000x128, .f32⟩
  | 84 => ⟨S1x800000, .i32⟩
  | 85 => ⟨S800000, .i32⟩
  | 86 => ⟨S1x800000, .i32⟩
  | 87 => ⟨S800000, .i32⟩
  | 88 => ⟨S50000, .i32⟩
  | 89 => ⟨S850000, .i32⟩
  | 90 => ⟨S850000, .i32⟩
  | 91 => ⟨S_, .f32⟩
  | 92 => ⟨S850000, .f32⟩
  | 93 => ⟨S_, .f32⟩
  | 94 => ⟨S50000, .f32⟩
  | 95 => ⟨S850000x1, .i32⟩
  | 96 => ⟨S50000, .f32⟩
  | 97 => ⟨S_, .f32⟩
  | 98 => ⟨S50000, .f32⟩
  | 99 => ⟨S50000, .i1⟩
  | 100 => ⟨S50000, .f32⟩
  | 101 => ⟨S_, .f32⟩
  | 102 => ⟨S_, .f32⟩
  | 103 => ⟨S50000, .f32⟩
  | 104 => ⟨S50000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000, .f32⟩
  | 123 => ⟨S850000, .f32⟩
  | 124 => ⟨S_, .i32⟩
  | 125 => ⟨S850000, .i32⟩
  | 126 => ⟨S850000, .i1⟩
  | 127 => ⟨S_, .i32⟩
  | _ => ⟨S50000x1, .i32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x128, .f32⟩
  | 5 => ⟨S850000x1, .f32⟩
  | 6 => ⟨S850000x128, .f32⟩
  | 7 => ⟨S850000x128, .f32⟩
  | 8 => ⟨S_, .f32⟩
  | 9 => ⟨S50000x128, .f32⟩
  | 10 => ⟨S850000x1, .i32⟩
  | 11 => ⟨S50000x128, .f32⟩
  | 12 => ⟨S1x128, .f32⟩
  | 13 => ⟨S50000x128, .f32⟩
  | 14 => ⟨S50000x128, .f32⟩
  | 15 => ⟨S50000x4096, .f32⟩
  | 16 => ⟨S1x4096, .f32⟩
  | 17 => ⟨S50000x4096, .f32⟩
  | 18 => ⟨S50000x4096, .f32⟩
  | 19 => ⟨S_, .i32⟩
  | 20 => ⟨S1024, .i32⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024x4096, .f32⟩
  | 28 => ⟨S_, .f32⟩
  | 29 => ⟨S4096, .f32⟩
  | 30 => ⟨S1x4096, .f32⟩
  | 31 => ⟨S_, .f32⟩
  | 32 => ⟨S1x4096, .f32⟩
  | 33 => ⟨S1x4096, .f32⟩
  | _ => ⟨S50000x1, .i32⟩

abbrev hbmTy (i : Nat) : BufTy := match i / 128 with
  | 0 => hbmTy0_0 i
  | 1 => hbmTy0_1 i
  | _ => ⟨S50000x1, .i32⟩

abbrev bufTy : (tb : Table) → Fin (tcTables nBuf tb) → BufTy
  | .hbm, ⟨i, _⟩ => hbmTy i
  | _, _ => ⟨S50000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_call2_v0 : Ref sig .tc := ⟨.hbm, 102, rfl⟩
abbrev main_call2_v1 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_19 : Ref sig .tc := ⟨.hbm, 124, rfl⟩
abbrev main_v87 : Ref sig .tc := ⟨.hbm, 125, rfl⟩
abbrev main_v88 : Ref sig .tc := ⟨.hbm, 126, rfl⟩
abbrev main_c_20 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_21 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_22 : Ref sig .tc := ⟨.hbm, 147, rfl⟩
abbrev main_v107 : Ref sig .tc := ⟨.hbm, 148, rfl⟩
abbrev main_v108 : Ref sig .tc := ⟨.hbm, 149, rfl⟩
abbrev main_c_23 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_24 : Ref sig .tc := ⟨.hbm, 156, rfl⟩
abbrev main_v114 : Ref sig .tc := ⟨.hbm, 157, rfl⟩
abbrev main_v115 : Ref sig .tc := ⟨.hbm, 158, rfl⟩
abbrev main_cst_25 : Ref sig .tc := ⟨.hbm, 159, rfl⟩
abbrev main_v116 : Ref sig .tc := ⟨.hbm, 160, rfl⟩
abbrev main_v117 : Ref sig .tc := ⟨.hbm, 161, rfl⟩

abbrev nD : Nat := 1
abbrev τ : Topo := Topo.v7x

variable {F : FTy → Type} [FloatOps F]

class Facts₀ : Prop where
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S4096_S1x4096_1 : S4096.BroadcastsInDim S1x4096 (![1] : Fin 1 → Fin S1x4096.rank)
  bcast_S1x4096_S50000x4096_0_1 : S1x4096.BroadcastsInDim S50000x4096 (![0, 1] : Fin 2 → Fin S50000x4096.rank)
  bcast_S_S1024 : S_.BroadcastsInDim S1024 (![] : Fin 0 → Fin S1024.rank)
  bcast_S1024_S1024x1_0 : S1024.BroadcastsInDim S1024x1 (![0] : Fin 1 → Fin S1024x1.rank)
  reducesTo_S1024x4096_S4096_d0 : S1024x4096.ReducesTo [0] S4096
  h_S_ : 0 < S_.numel
  bcast_S_S1x4096 : S_.BroadcastsInDim S1x4096 (![] : Fin 0 → Fin S1x4096.rank)
  gather_S4096x128_S50000x1_S50000x128_1_0_n_n_0_1_1128_wf : GatherDims.WF S4096x128 S50000x1 S50000x128 [1] [0] [] [0] [] 1 ![1, 128]
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x4096_S50000x4096_1_0_0_1_n_n_wf : DotDims.WF S50000x128 S128x4096 S50000x4096 [1] [0] [0] [1] [] []
  gather_S50000x4096_S1024x1_S1024x4096_1_0_n_n_0_1_14096_wf : GatherDims.WF S50000x4096 S1024x1 S1024x4096 [1] [0] [] [0] [] 1 ![1, 4096]

variable [Facts₀]

def gather_S4096x128_S50000x1_S50000x128_1_0_n_n_0_1_1128 : GatherDims S4096x128 S50000x1 S50000x128 where
  offsetDims := [1]
  collapsedSliceDims := [0]
  operandBatchingDims := []
  startIndicesBatchingDims := []
  startIndexMap := [0]
  indexVectorDim := 1
  sliceSizes := ![1, 128]
  wf := gather_S4096x128_S50000x1_S50000x128_1_0_n_n_0_1_1128_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x4096_S50000x4096_1_0_0_1_n_n : DotDims S50000x128 S128x4096 S50000x4096 where
  lhsContracting := [1]
  rhsContracting := [0]
  lhsNonContracting := [0]
  rhsNonContracting := [1]
  lhsBatch := []
  rhsBatch := []
  wf := dot_S50000x128_S128x4096_S50000x4096_1_0_0_1_n_n_wf
def gather_S50000x4096_S1024x1_S1024x4096_1_0_n_n_0_1_14096 : GatherDims S50000x4096 S1024x1 S1024x4096 where
  offsetDims := [1]
  collapsedSliceDims := [0]
  operandBatchingDims := []
  startIndicesBatchingDims := []
  startIndexMap := [0]
  indexVectorDim := 1
  sliceSizes := ![1, 4096]
  wf := gather_S50000x4096_S1024x1_S1024x4096_1_0_n_n_0_1_14096_wf

class Facts : Prop extends Facts₀ where

variable [Facts]
-- ==== Proof.KernelRun.lean ====
/-
  The idealized kernel's run, with its result named.

  The kernel's @main is nine segments: stretches of host operations and three pipelined regions. The contents of the
  TensorCore's buffers at each segment boundary are a fold from the launch memory: a host stretch applies its operations,
  a region replaces its arrays by what its write-backs leave. Every weakly fair execution terminates with every
  unscoped buffer at the last boundary's contents; so the result buffer ends at those contents read at the result
  buffer, and each argument, which no segment writes, ends as launched.
-/
import proofs.«126523_j28767690948710_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the last
    boundary's contents and every argument array as launched: the launch over the nine segments, the last thread state
    read against the final state, the result at its own buffer and each argument walked back through the fold. -/
theorem run_value : θ_run defs (onTc (τ := τ) (main (F := F))) ⟨m, fun _ => 0, ρ⟩ (fun r => ∀ c : Dev nD,
      r.2.mem ((c.tc : Thread nD τ).loc main_v85) = W9 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v85 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.RunValue

end
-- ==== Proof.Spec.lean ====
/-
  The node a position looks up.

  Indexing a node array with `x_position[p]` first counts a negative entry from the end (adds the number of nodes,
  50000, when the entry is negative as a signed 32-bit integer) and the lookup then reads the entry signed and clamps
  it into [0, 49999]. `posNode x2 p` is that node, as a number below 50000.
-/
import Idealize.ShloMosaic.PureOps.Ideal
import Idealize.ShloMosaic.Lib.ValueIdx

noncomputable section

namespace Cert.Spec

open Idealize.ShloMosaic Idealize.ShloMosaic.ValueIdx

/-- The entry at position `p`, a negative one counted from the end. -/
def wrapPos (x2 : IVec ⟨1, ![1024]⟩ 32) (p : Fin 1024) : BitVec 32 :=
  Scalar.select (IntOp.cmpi .slt (x2 (ix1 p)) 0#32) (IntOp.addi (x2 (ix1 p)) 50000#32) (x2 (ix1 p))

/-- The node position `p` looks up: the wrapped entry read signed and clamped into [0, 49999]. -/
def posNode (x2 : IVec ⟨1, ![1024]⟩ 32) (p : Fin 1024) : Fin 50000 :=
  ⟨min (wrapPos x2 p).toInt.toNat (50000 - 1), by omega⟩

end Cert.Spec

end
-- ==== Proof.LibGatherRows.lean ====
/-
  Looking whole rows of a matrix up at a column of indices, read at one position.

  `x[idx]` for a matrix `x : [N, D]` and an integer vector `idx : [R]` is lowered to a gather whose start indices are the
  vector written as a column `[R, 1]` (the index vector lies along axis 1), with the operand's row axis collapsed, its
  column axis the result's offset axis, and a slice of one whole row. Result entry `(t, j)` is `x` at the row
  `idx[t, 0]` — read as a signed integer and clamped into `[0, N - 1]`, as the gather clamps every start index — and at
  the column `j`. This is the rank-2 companion of the library's reading of a gather of a flat array
  (`ValueIdx.gather_take_apply`), proved the same way, one operand axis at a time.
-/
import Idealize.ShloMosaic.Lib.ValueIdx

noncomputable section

namespace Cert.LibGatherRows

open Idealize.ShloMosaic Idealize.ShloMosaic.ValueIdx

variable {α : Type}

/-- The dimension numbers of that gather for an operand `[N, D]`, start indices `[R, 1]` and a result `[R, D]`. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices position `[t, 0]` of result position `(t, j)`. -/
abbrev rowIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The gather read at `(t, j)`: the operand at the row `idx[t, 0]`, read signed and clamped into `[0, N - 1]`, and at
    the column `j`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ =>
    show (rowDims N D R wf).start y idx 0 + (rowDims N D R wf).batchCoord y 0 + (rowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx y ⟨List.idxOf (0 : Fin 2) (rowDims N D R wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N D R wf).start y idx 1 + (rowDims N D R wf).batchCoord y 1 + (rowDims N D R wf).offCoord y 1 = (y 1).val
    have h1 : (1 : Fin 2) ∉ (rowDims N D R wf).startIndexMap := show (1 : Fin 2) ∉ [(0 : Fin 2)] from by decide
    have hk : (1 : Fin 2) ∈ (rowDims N D R wf).sKept :=
      (GatherDims.mem_sKept _ _).mpr ⟨show (1 : Fin 2) ∉ [(0 : Fin 2)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibXnorHost.lean ====
/-
  The host's preparation of a binary layer's operands, read at an index, on the extended reals.
  * maskP: a one-bit mask M of shape [a, b], converted to numbers, doubled and lowered by one (each literal a rank-0
    constant spread over the shape), then narrowed: the entry (k, o) is 2·M(k, o) − 1.
  * thrP: the thresholds T of shape [b], converted as signed integers, lowered by a literal, plus the column sums of
    the mask's numbers (a sum along axis 0 from the zero word), recast as one row [1, b]: the entry (0, o) is
    (T(o) − literal) + (0 + Σ_k M(k, o)).
  * colsum_host: the host's sum along axis 0 of an [a, b] array reads, at o, the initial value plus Σ_k x(k, o).
  * row_of_vec: a [b] vector recast to a [1, b] row reads the vector's entry.
  * flat_of_cube / cube_of_flat: a [3, n·n'] array recast from or to [3, n, n'] moves entry (c, h, w) to (c, n'·h + w).
  Over the library only; every extent is a variable.
-/
import Idealize.ShloMosaic.PureOps.Ideal.Laws
import Idealize.ShloMosaic.Lib.ValueIdx
import Idealize.ShloMosaic.Lib.Pipeline.Value

noncomputable section

namespace Cert.LibXnorHost

open Idealize.ShloMosaic Idealize.ShloMosaic.ValueIdx

/-- A rank-0 float constant spread over any shape reads the literal everywhere. -/
theorem bcast_const {t : Shape} (h : (⟨0, ![]⟩ : Shape).BroadcastsInDim t (![] : Fin 0 → Fin t.rank)) (w : BitVec 32)
    (i : t.Idx) :
    broadcastInDim t ![] h (constant (F := Ideal) ⟨0, ![]⟩ .f32 w) i = Ideal.ofBits .f32 w :=
  broadcastInDim_apply (![] : Fin 0 → Fin t.rank) h _ i ix0 fun ax => ax.elim0

/-- The folded mask 2·M − 1. -/
def maskP (a b : ℕ) (h0 : (⟨0, ![]⟩ : Shape).BroadcastsInDim ⟨2, ![a, b]⟩ (![] : Fin 0 → Fin 2))
    (hbf : FTy.bf16.bits < FTy.f32.bits) (M : IVec ⟨2, ![a, b]⟩ 1) : FVec Ideal ⟨2, ![a, b]⟩ .bf16 :=
  truncf .bf16 (subf (mulf (broadcastInDim ⟨2, ![a, b]⟩ ![] h0 (constant (F := Ideal) ⟨0, ![]⟩ .f32 0x40000000#32))
      (uitofp .f32 M)) (broadcastInDim ⟨2, ![a, b]⟩ ![] h0 (constant (F := Ideal) ⟨0, ![]⟩ .f32 0x3F800000#32))) hbf

theorem maskP_apply (a b : ℕ) (h0 : (⟨0, ![]⟩ : Shape).BroadcastsInDim ⟨2, ![a, b]⟩ (![] : Fin 0 → Fin 2))
    (hbf : FTy.bf16.bits < FTy.f32.bits) (M : IVec ⟨2, ![a, b]⟩ 1) (i : (⟨2, ![a, b]⟩ : Shape).Idx) :
    maskP a b h0 hbf M i
      = Ideal.ofBits .f32 0x40000000#32 * (((M i).toNat : ℝ) : EReal) - Ideal.ofBits .f32 0x3F800000#32 := by
  show broadcastInDim ⟨2, ![a, b]⟩ ![] h0 (constant (F := Ideal) ⟨0, ![]⟩ .f32 0x40000000#32) i * (((M i).toNat : ℝ) : EReal)
      - broadcastInDim ⟨2, ![a, b]⟩ ![] h0 (constant (F := Ideal) ⟨0, ![]⟩ .f32 0x3F800000#32) i = _
  rw [bcast_const, bcast_const]

/-- The host's sum along axis 0, at column o. -/
theorem colsum_host {a b : ℕ} (x : FVec Ideal ⟨2, ![a, b]⟩ .f32) (init : (⟨0, ![]⟩ : Shape).Idx → EReal)
    (h' : (⟨2, ![a, b]⟩ : Shape).ReducesTo [0] ⟨1, ![b]⟩) (hu : 0 < (⟨0, ![]⟩ : Shape).numel)
    (hR : (⟨2, ![a, b]⟩ : Shape).Reduces [0] ⟨1, ![b]⟩) (o : Fin b) :
    Host.reduceAdd (F := Ideal) x init h' hu (ix1 o) = init (Shape.Idx.first hu) + ∑ k : Fin a, x (ix2 k o) :=
  (Ideal.hostReduceAdd_single h' hR x _ (ix1 o)).trans
    (congrArg (init (Shape.Idx.first hu) + ·) (Finset.sum_congr rfl fun k _ =>
      congrArg x (funext fun d => Fin.ext (by match d with | ⟨0, _⟩ => rfl | ⟨1, _⟩ => rfl))))

/-- A [b] vector recast to a [1, b] row reads, at (0, o), the vector's entry o. -/
theorem row_of_vec {b : ℕ} {α : Type} (v : (⟨1, ![b]⟩ : Shape).Idx → α) (h : (⟨1, ![b]⟩ : Shape).ShapeCasts ⟨2, ![1, b]⟩)
    (o : Fin b) : shapeCast ⟨2, ![1, b]⟩ v h (ix2 (0 : Fin 1) o) = v (ix1 o) :=
  (shapeCast_addUnit_apply ![b] v h (ix2 (0 : Fin 1) o)).trans
    (congrArg v (funext fun d => by match d with | ⟨0, _⟩ => rfl))

/-- The folded thresholds (T − literal) + column sums, as one row. -/
def thrP (a b : ℕ) (dw : BitVec 32) (h0 : (⟨0, ![]⟩ : Shape).BroadcastsInDim ⟨1, ![b]⟩ (![] : Fin 0 → Fin 1))
    (h' : (⟨2, ![a, b]⟩ : Shape).ReducesTo [0] ⟨1, ![b]⟩) (hu : 0 < (⟨0, ![]⟩ : Shape).numel)
    (hc : (⟨1, ![b]⟩ : Shape).ShapeCasts ⟨2, ![1, b]⟩) (M : IVec ⟨2, ![a, b]⟩ 1) (T : IVec ⟨1, ![b]⟩ 32) :
    FVec Ideal ⟨2, ![1, b]⟩ .f32 :=
  shapeCast ⟨2, ![1, b]⟩
    (addf (subf (sitofp .f32 T) (broadcastInDim ⟨1, ![b]⟩ ![] h0 (constant (F := Ideal) ⟨0, ![]⟩ .f32 dw)))
      (Host.reduceAdd (F := Ideal) (uitofp .f32 M) (constant (F := Ideal) ⟨0, ![]⟩ .f32 0x00000000#32) h' hu)) hc

theorem thrP_apply (a b : ℕ) (dw : BitVec 32) (h0 : (⟨0, ![]⟩ : Shape).BroadcastsInDim ⟨1, ![b]⟩ (![] : Fin 0 → Fin 1))
    (h' : (⟨2, ![a, b]⟩ : Shape).ReducesTo [0] ⟨1, ![b]⟩) (hu : 0 < (⟨0, ![]⟩ : Shape).numel)
    (hc : (⟨1, ![b]⟩ : Shape).ShapeCasts ⟨2, ![1, b]⟩) (hR : (⟨2, ![a, b]⟩ : Shape).Reduces [0] ⟨1, ![b]⟩)
    (M : IVec ⟨2, ![a, b]⟩ 1) (T : IVec ⟨1, ![b]⟩ 32) (o : Fin b) :
    thrP a b dw h0 h' hu hc M T (ix2 (0 : Fin 1) o)
      = ((((T (ix1 o)).toInt : ℝ) : EReal) - Ideal.ofBits .f32 dw)
        + (Ideal.ofBits .f32 0x00000000#32 + ∑ k : Fin a, (((M (ix2 k o)).toNat : ℝ) : EReal)) := by
  unfold thrP
  rw [row_of_vec]
  show ((((T (ix1 o)).toInt : ℝ) : EReal) - broadcastInDim ⟨1, ![b]⟩ ![] h0 (constant (F := Ideal) ⟨0, ![]⟩ .f32 dw) (ix1 o))
      + Host.reduceAdd (F := Ideal) (uitofp .f32 M) (constant (F := Ideal) ⟨0, ![]⟩ .f32 0x00000000#32) h' hu (ix1 o) = _
  rw [bcast_const, colsum_host _ _ h' hu hR o]
  rfl

/-- A [3, n, n'] array recast to [3, n·n'] reads, at (c, n'·h + w), the entry (c, h, w). -/
theorem flat_of_cube {α : Type} (n n' : ℕ) (x : (⟨3, ![3, n, n']⟩ : Shape).Idx → α)
    (h : (⟨3, ![3, n, n']⟩ : Shape).ShapeCasts ⟨2, ![3, n * n']⟩) (c : Fin 3) (hh : Fin n) (w : Fin n')
    (q : Fin (n * n')) (hq : q.val = n' * hh.val + w.val) :
    shapeCast ⟨2, ![3, n * n']⟩ x h (ix2 c q) = x (ix3 c hh w) :=
  shapeCast_apply x h _ _ (by
    rw [Shape.rowMajor_val_three, Shape.rowMajor_val_two]
    show (c.val * n + hh.val) * n' + w.val = c.val * (n * n') + q.val
    rw [hq]; ring)

/-- A [3, n·n'] array recast to [3, n, n'] reads, at (c, h, w), the entry (c, n'·h + w). -/
theorem cube_of_flat {α : Type} (n n' : ℕ) (x : (⟨2, ![3, n * n']⟩ : Shape).Idx → α)
    (h : (⟨2, ![3, n * n']⟩ : Shape).ShapeCasts ⟨3, ![3, n, n']⟩) (c : Fin 3) (hh : Fin n) (w : Fin n')
    (q : Fin (n * n')) (hq : q.val = n' * hh.val + w.val) :
    shapeCast ⟨3, ![3, n, n']⟩ x h (ix3 c hh w) = x (ix2 c q) :=
  shapeCast_apply x h _ _ (by
    rw [Shape.rowMajor_val_three, Shape.rowMajor_val_two]
    show c.val * (n * n') + q.val = (c.val * n + hh.val) * n' + w.val
    rw [hq]; ring)

end Cert.LibXnorHost

end
-- ==== Proof.KernelHost.lean ====
/-
  The idealized kernel's host stretches, read as the reference's stages.

  Between its three pipelined regions the kernel's @main runs the same graph-convolution bookkeeping as the reference:
  the embedding lookup h = emb[x]; the edge list with the self loops appended (row, col); the degree of every node, its
  inverse square root where positive, and the edge weight norm = dinv[row] · dinv[col]; then, per layer, the messages
  hw[row] · norm summed at their target node, plus the bias (and, in the first layer, the positive part). Each of the six
  stretches is read from ANY buffer contents `V` it may be entered at: given what `V` holds at the buffers the stretch
  reads, a buffer it writes holds the reference's stage of the same meaning (`val_main_vN`: the reference's operation N
  as a function of @main's arguments). The two programs spell these operations alike, so once the operands agree the
  terms are one. The reference recomputes row, col, the degrees and the edge weights in its second layer, where the
  kernel computes them once: the recomputed stages are the same terms (`row_again`, `col_again`, `norm_again`).

  Two stretches are the bodies of called functions (the select of the degree's inverse square root, the positive part):
  their three operations each are read first over opaque operands (`where_stretch`, `relu_stretch`).

  The last stretch ends with the mean over the looked-up positions, `zmean`: the rows z[x_position[p]] summed over the
  1024 positions and divided by 1024; `zmean_apply` reads it at a column.
-/
import proofs.«126523_j28767690948710_1_alg».proof.Proof.Gen.KernelIdeal.Frame
import proofs.«126523_j28767690948710_1_alg».proof.Proof.RefRead
import proofs.«126523_j28767690948710_1_alg».proof.Proof.Spec
import proofs.«126523_j28767690948710_1_alg».proof.Proof.LibGatherRows
import proofs.«126523_j28767690948710_1_alg».proof.Proof.LibHostBroadcast
import proofs.«126523_j28767690948710_1_alg».proof.Proof.LibXnorHost

set_option maxRecDepth 16384

noncomputable section

namespace Cert.KernelHost

open Cert.KernelIdeal Cert.KernelIdeal.Gen
open Idealize.ShloMosaic Idealize.ShloMosaic.TcCoe Idealize.ShloMosaic.StableHlo Idealize.ShloMosaic.ValueIdx Idealize.SL.Sem

variable (V : Valuation τ sig (Elt Ideal))

/-! ## The second layer's recomputed stages -/

theorem row_again (a1) : Cert.ReferenceIdeal.ReadP.val_main_v14 (F := Ideal) a1 = Cert.ReferenceIdeal.ReadP.val_main_v62 (F := Ideal) a1 := rfl
theorem col_again (a1) : Cert.ReferenceIdeal.ReadP.val_main_v15 (F := Ideal) a1 = Cert.ReferenceIdeal.ReadP.val_main_v63 (F := Ideal) a1 := rfl
theorem norm_again (a1) : Cert.ReferenceIdeal.ReadP.val_main_v38 (F := Ideal) a1 = Cert.ReferenceIdeal.ReadP.val_main_v86 (F := Ideal) a1 := rfl

/-! ## The first stretch: the lookup, the edge list, the degrees -/

theorem sA_v7 (a0 a3) (h0 : V (Proc.devRef .tc main_arg0) = a0) (h3 : V (Proc.devRef .tc main_arg3) = a3) :
    StableHlo.after hostOps0 V (Proc.devRef .tc main_v7) = Cert.ReferenceIdeal.ReadP.val_main_v7 (F := Ideal) a0 a3 := by
  dsimp only [hostOps0]; after_results; rw [h0, h3]; rfl

theorem sA_v13 (a1) (h1 : V (Proc.devRef .tc main_arg1) = a1) :
    StableHlo.after hostOps0 V (Proc.devRef .tc main_v13) = Cert.ReferenceIdeal.ReadP.val_main_v14 (F := Ideal) a1 := by
  dsimp only [hostOps0]; after_results; rw [h1]; rfl

theorem sA_v14 (a1) (h1 : V (Proc.devRef .tc main_arg1) = a1) :
    StableHlo.after hostOps0 V (Proc.devRef .tc main_v14) = Cert.ReferenceIdeal.ReadP.val_main_v15 (F := Ideal) a1 := by
  dsimp only [hostOps0]; after_results; rw [h1]; rfl

set_option maxHeartbeats 1000000 in
/-- Which nodes have a positive degree. -/
theorem sA_v20 (a1) (h1 : V (Proc.devRef .tc main_arg1) = a1) :
    StableHlo.after hostOps0 V (Proc.devRef .tc main_v20) = Cert.ReferenceIdeal.ReadP.val_main_v21 (F := Ideal) a1 := by
  dsimp only [hostOps0]; after_results; rw [h1]; rfl

set_option maxHeartbeats 1000000 in
/-- The inverse square root of every degree. -/
theorem sA_v21 (a1) (h1 : V (Proc.devRef .tc main_arg1) = a1) :
    StableHlo.after hostOps0 V (Proc.devRef .tc main_v21) = Cert.ReferenceIdeal.ReadP.val_main_v22 (F := Ideal) a1 := by
  dsimp only [hostOps0]; after_results; rw [h1]; rfl

theorem sA_cst3 : StableHlo.after hostOps0 V (Proc.devRef .tc main_cst_3) = Cert.ReferenceIdeal.ReadP.val_main_cst_3 (F := Ideal) := by
  dsimp only [hostOps0]; after_results_simp; rfl

/-! ## The second stretch: the inverse square root where the degree is positive, zero elsewhere -/

/-- The called function's three operations over opaque operands. -/
theorem where_stretch :
    StableHlo.after hostOps0_1 V (Proc.devRef .tc main_v22)
      = select (V (Proc.devRef .tc main_v20)) (V (Proc.devRef .tc main_v21)) (broadcastInDim S50000 ![] bcast_S_S50000 (id (V (Proc.devRef .tc main_cst_3)))) := by
  dsimp only [hostOps0_1]; after_results_simp; rfl

theorem sB_v22 (a1) (h20 : V (Proc.devRef .tc main_v20) = Cert.ReferenceIdeal.ReadP.val_main_v21 (F := Ideal) a1) (h21 : V (Proc.devRef .tc main_v21) = Cert.ReferenceIdeal.ReadP.val_main_v22 (F := Ideal) a1) (hc : V (Proc.devRef .tc main_cst_3) = Cert.ReferenceIdeal.ReadP.val_main_cst_3 (F := Ideal)) :
    StableHlo.after hostOps0_1 V (Proc.devRef .tc main_v22) = Cert.ReferenceIdeal.ReadP.val_main_v23 (F := Ideal) a1 := by
  rw [where_stretch, h20, h21, hc]; rfl

/-! ## The third stretch: the edge weights -/

set_option maxHeartbeats 1000000 in
theorem sC_v37 (a1) (h13 : V (Proc.devRef .tc main_v13) = Cert.ReferenceIdeal.ReadP.val_main_v14 (F := Ideal) a1) (h14 : V (Proc.devRef .tc main_v14) = Cert.ReferenceIdeal.ReadP.val_main_v15 (F := Ideal) a1) (h22 : V (Proc.devRef .tc main_v22) = Cert.ReferenceIdeal.ReadP.val_main_v23 (F := Ideal) a1) :
    StableHlo.after hostOps0_2 V (Proc.devRef .tc main_v37) = Cert.ReferenceIdeal.ReadP.val_main_v38 (F := Ideal) a1 := by
  dsimp only [hostOps0_2]; after_results_simp; rw [h13, h14, h22]; rfl

/-! ## The fourth stretch: the first layer's messages summed at their targets, plus the bias -/

set_option maxHeartbeats 1000000 in
theorem sD_v54 (a0 a1 a3 a4 a5) (h38 : V (Proc.devRef .tc main_v38) = Cert.ReferenceIdeal.ReadP.val_main_v8 (F := Ideal) a0 a3 a4) (h13 : V (Proc.devRef .tc main_v13) = Cert.ReferenceIdeal.ReadP.val_main_v14 (F := Ideal) a1)
    (h14 : V (Proc.devRef .tc main_v14) = Cert.ReferenceIdeal.ReadP.val_main_v15 (F := Ideal) a1) (h37 : V (Proc.devRef .tc main_v37) = Cert.ReferenceIdeal.ReadP.val_main_v38 (F := Ideal) a1) (h5 : V (Proc.devRef .tc main_arg5) = a5) :
    StableHlo.after hostOps1 V (Proc.devRef .tc main_v54) = Cert.ReferenceIdeal.ReadP.val_main_v54 (F := Ideal) a0 a1 a3 a4 a5 := by
  dsimp only [hostOps1]; after_results_simp; rw [h38, h13, h14, h37, h5]; rfl

/-! ## The fifth stretch: the positive part -/

/-- The called function's three operations over an opaque operand. -/
theorem relu_stretch :
    StableHlo.after hostOps1_1 V (Proc.devRef .tc main_v55)
      = (maximumf (F := Ideal) (V (Proc.devRef .tc main_v54) : FVec Ideal S50000x256 .f32)
          (broadcastInDim S50000x256 ![] bcast_S_S50000x256 (constant (F := Ideal) S_ .f32 0x00000000#32)) :
          FVec Ideal S50000x256 .f32) := by
  dsimp only [hostOps1_1]; after_results_simp; rfl

theorem sE_v55 (a0 a1 a3 a4 a5) (h54 : V (Proc.devRef .tc main_v54) = Cert.ReferenceIdeal.ReadP.val_main_v54 (F := Ideal) a0 a1 a3 a4 a5) :
    StableHlo.after hostOps1_1 V (Proc.devRef .tc main_v55) = Cert.ReferenceIdeal.ReadP.val_main_v55 (F := Ideal) a0 a1 a3 a4 a5 := by
  rw [relu_stretch, h54]; rfl

/-! ## The sixth stretch: the second layer, and the mean over the looked-up positions -/

set_option maxHeartbeats 1000000 in
/-- The node features z. -/
theorem sF_v72 (a0 a1 a3 a4 a5 a6 a7) (h56 : V (Proc.devRef .tc main_v56) = Cert.ReferenceIdeal.ReadP.val_main_v56 (F := Ideal) a0 a1 a3 a4 a5 a6) (h13 : V (Proc.devRef .tc main_v13) = Cert.ReferenceIdeal.ReadP.val_main_v62 (F := Ideal) a1)
    (h14 : V (Proc.devRef .tc main_v14) = Cert.ReferenceIdeal.ReadP.val_main_v63 (F := Ideal) a1) (h37 : V (Proc.devRef .tc main_v37) = Cert.ReferenceIdeal.ReadP.val_main_v86 (F := Ideal) a1) (h7 : V (Proc.devRef .tc main_arg7) = a7) :
    StableHlo.after hostOps2 V (Proc.devRef .tc main_v72) = Cert.ReferenceIdeal.ReadP.val_main_v102 (F := Ideal) a0 a1 a3 a4 a5 a6 a7 := by
  dsimp only [hostOps2]; after_results_simp; rw [h56, h13, h14, h37, h7]; rfl

/-- The mean of the rows of `z` at the looked-up positions: each position wrapped (a negative one counted from the
    end), the rows gathered, summed along the positions from the zero word, and divided by the word of 1024. -/
def zmean (z : FVec Ideal S50000x128 .f32) (pos : IVec S1024 32) : FVec Ideal S1x128 .f32 :=
  Host.divf
    (broadcastInDim S1x128 ![1] bcast_S128_S1x128_1
      (Host.reduceAdd
        (Host.gather gather_S50000x128_S1024x1_S1024x128_1_0_n_n_0_1_1128 z
          (broadcastInDim S1024x1 ![0] bcast_S1024_S1024x1_0
            (select (cmpi .slt pos (broadcastInDim S1024 ![] bcast_S_S1024 (constantI S_ 32 0#32)))
              (addi pos (broadcastInDim S1024 ![] bcast_S_S1024 (constantI S_ 32 50000#32))) pos)))
        (constant S_ .f32 0x00000000#32) reducesTo_S1024x128_S128_d0 h_S_))
    (broadcastInDim S1x128 ![] bcast_S_S1x128 (constant S_ .f32 0x44800000#32))

set_option maxHeartbeats 1000000 in
/-- The last region's first operand, from the node features as the stretch left them and the positions. -/
theorem sF_v83_of_v72 (a2) (h2 : V (Proc.devRef .tc main_arg2) = a2) :
    StableHlo.after hostOps2 V (Proc.devRef .tc main_v83) = zmean (StableHlo.after hostOps2 V (Proc.devRef .tc main_v72)) a2 := by
  dsimp only [hostOps2]; after_results_simp; rw [h2]; rfl

/-- The last region's third operand: the classifier's bias as one row. -/
theorem sF_v84 (a9) (h9 : V (Proc.devRef .tc main_arg9) = a9) :
    StableHlo.after hostOps2 V (Proc.devRef .tc main_v84) = shapeCast S1x4096 a9 shapeCasts_S4096_S1x4096 := by
  dsimp only [hostOps2]; after_results_simp; rw [h9]; rfl

/-! ## The mean at a column -/

/-- The wrapped positions as a column: at `(p, 0)` the entry at `p`, plus 50000 where it is negative. -/
theorem wrap_col (pos : IVec S1024 32) (p : Fin 1024) (u : Fin 1) :
    broadcastInDim S1024x1 ![0] bcast_S1024_S1024x1_0
        (select (cmpi .slt pos (broadcastInDim S1024 ![] bcast_S_S1024 (constantI S_ 32 0#32)))
          (addi pos (broadcastInDim S1024 ![] bcast_S_S1024 (constantI S_ 32 50000#32))) pos) (ix2 p u)
      = Cert.Spec.wrapPos pos p := by
  rw [Cert.LibHostBroadcast.vec_to_col]
  show Scalar.select (IntOp.cmpi .slt (pos (ix1 p)) (broadcastInDim S1024 ![] bcast_S_S1024 (constantI S_ 32 0#32) (ix1 p)))
      (IntOp.addi (pos (ix1 p)) (broadcastInDim S1024 ![] bcast_S_S1024 (constantI S_ 32 50000#32) (ix1 p))) (pos (ix1 p)) = _
  rw [Cert.LibHostBroadcast.scalar_to_any, Cert.LibHostBroadcast.scalar_to_any]
  rfl

/-- The mean at column `k`: the sum over the 1024 positions of z at the looked-up node, from the zero word, over the
    word of 1024. -/
theorem zmean_apply (z : FVec Ideal S50000x128 .f32) (pos : IVec S1024 32) (k : Fin 128) :
    zmean z pos (ix2 (0 : Fin 1) k)
      = Ideal.div (Ideal.ofBits .f32 0x00000000#32 + ∑ p : Fin 1024, z (ix2 (Cert.Spec.posNode pos p) k))
          (Ideal.ofBits .f32 0x44800000#32) := by
  unfold zmean
  simp only [Host.divf, Ideal.hostDivf_def]
  rw [Cert.LibHostBroadcast.vec_to_row, Cert.LibXnorHost.bcast_const,
    Cert.LibXnorHost.colsum_host _ _ reducesTo_S1024x128_S128_d0 h_S_ (by decide) k]
  refine congrArg (fun s => Ideal.div s _) (congrArg₂ (· + ·) rfl (Finset.sum_congr rfl fun p _ => ?_))
  refine (Cert.LibGatherRows.gather_rows_apply (N := 50000) (D := 128) (R := 1024) (by decide)
    Gen.gather_S50000x128_S1024x1_S1024x128_1_0_n_n_0_1_1128_wf z _ (ix2 p k)).trans ?_
  refine congrArg z (funext fun a => Fin.ext ?_)
  have hr : Cert.LibGatherRows.rowIdx (ix2 p k : (⟨2, ![1024, 128]⟩ : Shape).Idx) = ix2 p (0 : Fin 1) :=
    funext fun a => Fin.ext (by match a with | ⟨0, _⟩ => rfl | ⟨1, _⟩ => rfl)
  match a with
  | ⟨0, _⟩ =>
    show min ((broadcastInDim S1024x1 ![0] bcast_S1024_S1024x1_0
        (select (cmpi .slt pos (broadcastInDim S1024 ![] bcast_S_S1024 (constantI S_ 32 0#32)))
          (addi pos (broadcastInDim S1024 ![] bcast_S_S1024 (constantI S_ 32 50000#32))) pos))
        (Cert.LibGatherRows.rowIdx (ix2 p k : (⟨2, ![1024, 128]⟩ : Shape).Idx))).toInt.toNat (50000 - 1)
      = min (Cert.Spec.wrapPos pos p).toInt.toNat (50000 - 1)
    rw [hr, wrap_col]
  | ⟨1, _⟩ => rfl

end Cert.KernelHost

end
-- ==== Proof.KernelKeep.lean ====
/-
  Buffers a stretch of the kernel's host operations does not write keep their contents.

  The kernel's @main has six stretches of host operations (three before the first region, two between the first and
  the second, one before the third). A stretch rewrites only the buffers its own operations write; every other
  buffer reads after the stretch what it read before. One statement per stretch and per buffer that a later stretch
  or region still reads, from any contents `V`.
-/
import proofs.«126523_j28767690948710_1_alg».proof.Proof.Gen.KernelIdeal.Frame
import proofs.«126523_j28767690948710_1_alg».proof.Proof.RefRead

set_option maxRecDepth 16384

noncomputable section

namespace Cert.KernelKeep

open Cert.KernelIdeal Cert.KernelIdeal.Gen
open Idealize.ShloMosaic Idealize.ShloMosaic.TcCoe Idealize.ShloMosaic.StableHlo Idealize.ShloMosaic.ValueIdx Idealize.SL.Sem

variable (V : Valuation τ sig (Elt Ideal))

/-! ## The stretch `hostOps0` -/

theorem keepA_arg2 : StableHlo.after hostOps0 V (Proc.devRef .tc main_arg2) = V (Proc.devRef .tc main_arg2) := by
  dsimp only [hostOps0]
  after_results_simp

theorem keepA_arg4 : StableHlo.after hostOps0 V (Proc.devRef .tc main_arg4) = V (Proc.devRef .tc main_arg4) := by
  dsimp only [hostOps0]
  after_results_simp

theorem keepA_arg5 : StableHlo.after hostOps0 V (Proc.devRef .tc main_arg5) = V (Proc.devRef .tc main_arg5) := by
  dsimp only [hostOps0]
  after_results_simp

theorem keepA_arg6 : StableHlo.after hostOps0 V (Proc.devRef .tc main_arg6) = V (Proc.devRef .tc main_arg6) := by
  dsimp only [hostOps0]
  after_results_simp

theorem keepA_arg7 : StableHlo.after hostOps0 V (Proc.devRef .tc main_arg7) = V (Proc.devRef .tc main_arg7) := by
  dsimp only [hostOps0]
  after_results_simp

theorem keepA_arg8 : StableHlo.after hostOps0 V (Proc.devRef .tc main_arg8) = V (Proc.devRef .tc main_arg8) := by
  dsimp only [hostOps0]
  after_results_simp

theorem keepA_arg9 : StableHlo.after hostOps0 V (Proc.devRef .tc main_arg9) = V (Proc.devRef .tc main_arg9) := by
  dsimp only [hostOps0]
  after_results_simp

/-! ## The stretch `hostOps0_1` -/

theorem keepB_v7 : StableHlo.after hostOps0_1 V (Proc.devRef .tc main_v7) = V (Proc.devRef .tc main_v7) := by
  dsimp only [hostOps0_1]
  after_results_simp

theorem keepB_v13 : StableHlo.after hostOps0_1 V (Proc.devRef .tc main_v13) = V (Proc.devRef .tc main_v13) := by
  dsimp only [hostOps0_1]
  after_results_simp

theorem keepB_v14 : StableHlo.after hostOps0_1 V (Proc.devRef .tc main_v14) = V (Proc.devRef .tc main_v14) := by
  dsimp only [hostOps0_1]
  after_results_simp

theorem keepB_arg2 : StableHlo.after hostOps0_1 V (Proc.devRef .tc main_arg2) = V (Proc.devRef .tc main_arg2) := by
  dsimp only [hostOps0_1]
  after_results_simp

theorem keepB_arg4 : StableHlo.after hostOps0_1 V (Proc.devRef .tc main_arg4) = V (Proc.devRef .tc main_arg4) := by
  dsimp only [hostOps0_1]
  after_results_simp

theorem keepB_arg5 : StableHlo.after hostOps0_1 V (Proc.devRef .tc main_arg5) = V (Proc.devRef .tc main_arg5) := by
  dsimp only [hostOps0_1]
  after_results_simp

theorem keepB_arg6 : StableHlo.after hostOps0_1 V (Proc.devRef .tc main_arg6) = V (Proc.devRef .tc main_arg6) := by
  dsimp only [hostOps0_1]
  after_results_simp

theorem keepB_arg7 : StableHlo.after hostOps0_1 V (Proc.devRef .tc main_arg7) = V (Proc.devRef .tc main_arg7) := by
  dsimp only [hostOps0_1]
  after_results_simp

theorem keepB_arg8 : StableHlo.after hostOps0_1 V (Proc.devRef .tc main_arg8) = V (Proc.devRef .tc main_arg8) := by
  dsimp only [hostOps0_1]
  after_results_simp

theorem keepB_arg9 : StableHlo.after hostOps0_1 V (Proc.devRef .tc main_arg9) = V (Proc.devRef .tc main_arg9) := by
  dsimp only [hostOps0_1]
  after_results_simp

/-! ## The stretch `hostOps0_2` -/

theorem keepC_v7 : StableHlo.after hostOps0_2 V (Proc.devRef .tc main_v7) = V (Proc.devRef .tc main_v7) := by
  dsimp only [hostOps0_2]
  after_results_simp

theorem keepC_v13 : StableHlo.after hostOps0_2 V (Proc.devRef .tc main_v13) = V (Proc.devRef .tc main_v13) := by
  dsimp only [hostOps0_2]
  after_results_simp

theorem keepC_v14 : StableHlo.after hostOps0_2 V (Proc.devRef .tc main_v14) = V (Proc.devRef .tc main_v14) := by
  dsimp only [hostOps0_2]
  after_results_simp

theorem keepC_arg2 : StableHlo.after hostOps0_2 V (Proc.devRef .tc main_arg2) = V (Proc.devRef .tc main_arg2) := by
  dsimp only [hostOps0_2]
  after_results_simp

theorem keepC_arg4 : StableHlo.after hostOps0_2 V (Proc.devRef .tc main_arg4) = V (Proc.devRef .tc main_arg4) := by
  dsimp only [hostOps0_2]
  after_results_simp

theorem keepC_arg5 : StableHlo.after hostOps0_2 V (Proc.devRef .tc main_arg5) = V (Proc.devRef .tc main_arg5) := by
  dsimp only [hostOps0_2]
  after_results_simp

theorem keepC_arg6 : StableHlo.after hostOps0_2 V (Proc.devRef .tc main_arg6) = V (Proc.devRef .tc main_arg6) := by
  dsimp only [hostOps0_2]
  after_results_simp

theorem keepC_arg7 : StableHlo.after hostOps0_2 V (Proc.devRef .tc main_arg7) = V (Proc.devRef .tc main_arg7) := by
  dsimp only [hostOps0_2]
  after_results_simp

theorem keepC_arg8 : StableHlo.after hostOps0_2 V (Proc.devRef .tc main_arg8) = V (Proc.devRef .tc main_arg8) := by
  dsimp only [hostOps0_2]
  after_results_simp

theorem keepC_arg9 : StableHlo.after hostOps0_2 V (Proc.devRef .tc main_arg9) = V (Proc.devRef .tc main_arg9) := by
  dsimp only [hostOps0_2]
  after_results_simp

/-! ## The stretch `hostOps1` -/

theorem keepD_v13 : StableHlo.after hostOps1 V (Proc.devRef .tc main_v13) = V (Proc.devRef .tc main_v13) := by
  dsimp only [hostOps1]
  after_results_simp

theorem keepD_v14 : StableHlo.after hostOps1 V (Proc.devRef .tc main_v14) = V (Proc.devRef .tc main_v14) := by
  dsimp only [hostOps1]
  after_results_simp

theorem keepD_v37 : StableHlo.after hostOps1 V (Proc.devRef .tc main_v37) = V (Proc.devRef .tc main_v37) := by
  dsimp only [hostOps1]
  after_results_simp

theorem keepD_arg2 : StableHlo.after hostOps1 V (Proc.devRef .tc main_arg2) = V (Proc.devRef .tc main_arg2) := by
  dsimp only [hostOps1]
  after_results_simp

theorem keepD_arg6 : StableHlo.after hostOps1 V (Proc.devRef .tc main_arg6) = V (Proc.devRef .tc main_arg6) := by
  dsimp only [hostOps1]
  after_results_simp

theorem keepD_arg7 : StableHlo.after hostOps1 V (Proc.devRef .tc main_arg7) = V (Proc.devRef .tc main_arg7) := by
  dsimp only [hostOps1]
  after_results_simp

theorem keepD_arg8 : StableHlo.after hostOps1 V (Proc.devRef .tc main_arg8) = V (Proc.devRef .tc main_arg8) := by
  dsimp only [hostOps1]
  after_results_simp

theorem keepD_arg9 : StableHlo.after hostOps1 V (Proc.devRef .tc main_arg9) = V (Proc.devRef .tc main_arg9) := by
  dsimp only [hostOps1]
  after_results_simp

/-! ## The stretch `hostOps1_1` -/

theorem keepE_v13 : StableHlo.after hostOps1_1 V (Proc.devRef .tc main_v13) = V (Proc.devRef .tc main_v13) := by
  dsimp only [hostOps1_1]
  after_results_simp

theorem keepE_v14 : StableHlo.after hostOps1_1 V (Proc.devRef .tc main_v14) = V (Proc.devRef .tc main_v14) := by
  dsimp only [hostOps1_1]
  after_results_simp

theorem keepE_v37 : StableHlo.after hostOps1_1 V (Proc.devRef .tc main_v37) = V (Proc.devRef .tc main_v37) := by
  dsimp only [hostOps1_1]
  after_results_simp

theorem keepE_arg2 : StableHlo.after hostOps1_1 V (Proc.devRef .tc main_arg2) = V (Proc.devRef .tc main_arg2) := by
  dsimp only [hostOps1_1]
  after_results_simp

theorem keepE_arg6 : StableHlo.after hostOps1_1 V (Proc.devRef .tc main_arg6) = V (Proc.devRef .tc main_arg6) := by
  dsimp only [hostOps1_1]
  after_results_simp

theorem keepE_arg7 : StableHlo.after hostOps1_1 V (Proc.devRef .tc main_arg7) = V (Proc.devRef .tc main_arg7) := by
  dsimp only [hostOps1_1]
  after_results_simp

theorem keepE_arg8 : StableHlo.after hostOps1_1 V (Proc.devRef .tc main_arg8) = V (Proc.devRef .tc main_arg8) := by
  dsimp only [hostOps1_1]
  after_results_simp

theorem keepE_arg9 : StableHlo.after hostOps1_1 V (Proc.devRef .tc main_arg9) = V (Proc.devRef .tc main_arg9) := by
  dsimp only [hostOps1_1]
  after_results_simp

/-! ## The stretch `hostOps2` -/

theorem keepF_arg8 : StableHlo.after hostOps2 V (Proc.devRef .tc main_arg8) = V (Proc.devRef .tc main_arg8) := by
  dsimp only [hostOps2]
  after_results_simp

end Cert.KernelKeep

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KernelDots.lean ====
/-
  What the kernel's three TensorCore regions leave in their output arrays at the ideal values, as whole-array
  functions of the buffer contents each region is entered with.
  Regions 0 and 1 are row-tiled matrix products: point t of 25 multiplies rows 2000t … 2000t + 1999 of the left array by
  the whole right matrix and writes the same rows of the output, so the output array ends holding the full product.
  Region 2 has one point and whole-array blocks: a [1,128] row times a [128,4096] matrix plus a [1,4096] row.
  All values are extended reals; rounding an operand to bf16 is the identity there.
-/
import proofs.«126523_j28767690948710_1_alg».proof.Proof.Gen.KernelIdeal.Frame
import proofs.«126523_j28767690948710_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelDots

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-block access, as a constant function. -/
theorem hz : (![0, 0] : Fin 2 → Nat) = fun _ => 0 := funext fun a => by fin_cases a <;> rfl

/-! ## The bodies' arithmetic at an index

Each body rounds its two operands to bf16 (the identity on the extended reals) and multiplies them into a zero
accumulator: at the output index (a, b) that is the sum over k of l(a, k) · r(k, b). -/

/-- Region 0's body: a [2000,128] block times the [128,256] matrix. -/
theorem pay0 (x0 : Vec Ideal S2000x128 .f32) (x1 : Vec Ideal S128x256 .f32) (y : S2000x256.Idx) :
    k0_pay1 x0 x1 y = ∑ k : Fin 128, x0 (ix2 (y 0) k) * x1 (ix2 k (y 1)) := by
  unfold k0_pay1
  rw [shapeCast_self]
  have h := Cert.LibPlainDot.matmul_plain 2000 128 256 none (φ₁ := .bf16) (φ₂ := .bf16)
    (truncf (F := Ideal) .bf16 (x0 : FVec Ideal S2000x128 .f32) bitsLt_bf16_f32)
    (truncf (F := Ideal) .bf16 (x1 : FVec Ideal S128x256 .f32) bitsLt_bf16_f32) y
  exact h

/-- Region 1's body: a [2000,256] block times the [256,128] matrix. -/
theorem pay1 (x0 : Vec Ideal S2000x256 .f32) (x1 : Vec Ideal S256x128 .f32) (y : S2000x128.Idx) :
    k1_pay1 x0 x1 y = ∑ k : Fin 256, x0 (ix2 (y 0) k) * x1 (ix2 k (y 1)) := by
  unfold k1_pay1
  rw [shapeCast_self]
  have h := Cert.LibPlainDot.matmul_plain 2000 256 128 none (φ₁ := .bf16) (φ₂ := .bf16)
    (truncf (F := Ideal) .bf16 (x0 : FVec Ideal S2000x256 .f32) bitsLt_bf16_f32)
    (truncf (F := Ideal) .bf16 (x1 : FVec Ideal S256x128 .f32) bitsLt_bf16_f32) y
  exact h

/-- Region 2's body: the [1,128] row times the [128,4096] matrix, plus the [1,4096] row. -/
theorem pay2 (x0 : Vec Ideal S1x128 .f32) (x1 : Vec Ideal S128x4096 .f32) (x2 : Vec Ideal S1x4096 .f32) (y : S1x4096.Idx) :
    k2_pay1 x0 x1 x2 y = (∑ k : Fin 128, x0 (ix2 (y 0) k) * x1 (ix2 k (y 1))) + x2 y := by
  unfold k2_pay1
  rw [shapeCast_self, shapeCast_self]
  have h := Cert.LibPlainDot.matmul_plain 1 128 4096 none (φ₁ := .bf16) (φ₂ := .bf16)
    (truncf (F := Ideal) .bf16 (x0 : FVec Ideal S1x128 .f32) bitsLt_bf16_f32)
    (truncf (F := Ideal) .bf16 (x1 : FVec Ideal S128x4096 .f32) bitsLt_bf16_f32) y
  exact congrArg (· + x2 y) h

variable (V : (c : Dev nD) → (b : Ref sig .tc) → Buf (Elt Ideal) ((c : Thread nD τ).loc b)) (c : Dev nD)

/-! ## Region 0: point t computes rows 2000t … 2000t + 1999 of the product -/

/-- The product of a [50000,128] array and a [128,256] matrix, index by index. -/
abbrev prod0 (A : S50000x128.Idx → EReal) (B : S128x256.Idx → EReal) : S50000x256.Idx → EReal := fun j =>
  ∑ k : Fin 128, A (ix2 (j 0) k) * B (ix2 k (j 1))

/-- The index maps over the grid: the left operand's and the output's row block is the point's number, every other
    block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000t … 2000t + 1999 of its array. -/
theorem lblk0 (t : Fin cfg0.N) (x : S2000x128.Idx) (i : S50000x128.Idx)
    (h0 : (i 0).val = 2000 * t.val + (x 0).val) (h1 : (i 1).val = (x 1).val) :
    (iblk0 (F := Ideal) V c 0 t : Vec Ideal S2000x128 .f32) x = (V c main_v7 : S50000x128.Idx → EReal) i := by
  obtain ⟨e0, e1, -, -, -, -⟩ := idx0 t
  unfold iblk0
  rw [View.read_apply]
  show V c main_v7 _ = V c main_v7 _
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 128 + 1 * (x 1).val = (i 1).val; rw [e1, h1]; omega

/-- The right operand's block at every point is its whole array. -/
theorem rblk0 (t : Fin cfg0.N) (x : S128x256.Idx) :
    (iblk0 (F := Ideal) V c 1 t : Vec Ideal S128x256 .f32) x = (V c main_arg4 : S128x256.Idx → EReal) x := by
  obtain ⟨-, -, e2, e3, -, -⟩ := idx0 t
  unfold iblk0
  rw [View.read_apply]
  show V c main_arg4 _ = V c main_arg4 _
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 256 + 1 * (x 1).val = (x 1).val; rw [e3]; omega

/-- What point t writes back is block t of the product. -/
theorem flushed0 (t : Fin cfg0.N) :
    (dat0 (F := Ideal) V c).flushed 2 t
      = ((cfg0.win 2).blk t).view.read (Elt Ideal) (prod0 (V c main_v7) (V c main_arg4)) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S128x256) hz]
  obtain ⟨-, -, -, -, e4, e5⟩ := idx0 t
  funext j
  refine (pay0 (iblk0 (F := Ideal) V c 0 t) (iblk0 (F := Ideal) V c 1 t) (win0_2.xinj (grid0.coords t) j)).trans ?_
  show _ = prod0 (V c main_v7) (V c main_arg4) (((cfg0.win 2).blk t).view.emb j)
  refine Finset.sum_congr rfl fun k _ => ?_
  refine congr (congrArg HMul.hMul (lblk0 V c t _ _ ?_ rfl))
    ((rblk0 V c t _).trans (congrArg (V c main_arg4 : S128x256.Idx → EReal) ?_))
  · show win0_2.index t (0 : Fin 2) * 2000 + 1 * (j 0).val = 2000 * t.val + (j 0).val
    rw [e4]; omega
  · funext a
    apply Fin.ext
    match a with
    | ⟨0, _⟩ => rfl
    | ⟨1, _⟩ => show (j 1).val = win0_2.index t (1 : Fin 2) * 256 + 1 * (j 1).val; rw [e5]; omega

/-- An index of the output array is in point t's block iff each coordinate is in the block's range. -/
theorem mem_blk0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v38).slice (win0_2.rect t)).set ↔ _
  rw [View.set_slice_whole, Rect.mem_set_unit]
  exact Iff.rfl

/-- Row r of the output is written back by point r / 2000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 256 ≤ (i 1).val ∧ (i 1).val < win0_2.index t (1 : Fin 2) * 256 + 256
    rw [e5]; omega

/-- Region 0 leaves the product in its output array. -/
theorem region0_value : (dat0 (F := Ideal) V c).arrAt 2 cfg0.N = prod0 (V c main_v7) (V c main_arg4) :=
  (dat0 (F := Ideal) V c).arrAt_eq_of_cover 2 (prod0 (V c main_v7) (V c main_arg4)) (fun t _ => flushed0 V c t) cover0

/-! ## Region 1: point t computes rows 2000t … 2000t + 1999 of the product -/

/-- The product of a [50000,256] array and a [256,128] matrix, index by index. -/
abbrev prod1 (A : S50000x256.Idx → EReal) (B : S256x128.Idx → EReal) : S50000x128.Idx → EReal := fun j =>
  ∑ k : Fin 256, A (ix2 (j 0) k) * B (ix2 k (j 1))

/-- The index maps over the grid: the left operand's and the output's row block is the point's number, every other
    block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 2000t … 2000t + 1999 of its array. -/
theorem lblk1 (t : Fin cfg1.N) (x : S2000x256.Idx) (i : S50000x256.Idx)
    (h0 : (i 0).val = 2000 * t.val + (x 0).val) (h1 : (i 1).val = (x 1).val) :
    (iblk1 (F := Ideal) V c 0 t : Vec Ideal S2000x256 .f32) x = (V c main_v55 : S50000x256.Idx → EReal) i := by
  obtain ⟨e0, e1, -, -, -, -⟩ := idx1 t
  unfold iblk1
  rw [View.read_apply]
  show V c main_v55 _ = V c main_v55 _
  congr 1
  funext a
  apply Fin.ext
  match a with
  | ⟨0, _⟩ => show win1_0.index t (0 : Fin 2) * 2000 + 1 * (x 0).val = (i 0).val; rw [e0, h0]; omega
  | ⟨1, _⟩ => show win1_0.index t (1 : Fin 2) * 256 + 1 * (x 1).val = (i 1).val; rw [e1, h1]; omega

/-- The right operand's block at every point is its whole array. -/
theorem rblk1 (t : Fin cfg1.N) (x : S256x128.Idx) :
    (iblk1 (F := Ideal) V c 1 t : Vec Ideal S256x128 .f32) x = (V c main_arg6 : S256x128.Idx → EReal) x := by
  obtain ⟨-, -, e2, e3, -, -⟩ := idx1 t
  unfold iblk1
  rw [View.read_apply]
  show V c main_arg6 _ = V c main_arg6 _
  congr 1
  funext a
  apply Fin.ext
  match a with
  | ⟨0, _⟩ => show win1_1.index t (0 : Fin 2) * 256 + 1 * (x 0).val = (x 0).val; rw [e2]; omega
  | ⟨1, _⟩ => show win1_1.index t (1 : Fin 2) * 128 + 1 * (x 1).val = (x 1).val; rw [e3]; omega

/-- What point t writes back is block t of the product. -/
theorem flushed1 (t : Fin cfg1.N) :
    (dat1 (F := Ideal) V c).flushed 2 t
      = ((cfg1.win 2).blk t).view.read (Elt Ideal) (prod1 (V c main_v55) (V c main_arg6)) := by
  show (cfg1.win 2).cut (grid1.coords t) ((dat1 (F := Ideal) V c).after 2 t) = _
  rw [after1_2]
  unfold out1_2
  rw [View.canon_unit_zero hz]
  simp only [View.ld_unit_zero (S := S2000x256) hz, View.ld_unit_zero (S := S256x128) hz]
  obtain ⟨-, -, -, -, e4, e5⟩ := idx1 t
  funext j
  refine (pay1 (iblk1 (F := Ideal) V c 0 t) (iblk1 (F := Ideal) V c 1 t) (win1_2.xinj (grid1.coords t) j)).trans ?_
  show _ = prod1 (V c main_v55) (V c main_arg6) (((cfg1.win 2).blk t).view.emb j)
  refine Finset.sum_congr rfl fun k _ => ?_
  refine congr (congrArg HMul.hMul (lblk1 V c t _ _ ?_ rfl))
    ((rblk1 V c t _).trans (congrArg (V c main_arg6 : S256x128.Idx → EReal) ?_))
  · show win1_2.index t (0 : Fin 2) * 2000 + 1 * (j 0).val = 2000 * t.val + (j 0).val
    rw [e4]; omega
  · funext a
    apply Fin.ext
    match a with
    | ⟨0, _⟩ => rfl
    | ⟨1, _⟩ => show (j 1).val = win1_2.index t (1 : Fin 2) * 128 + 1 * (j 1).val; rw [e5]; omega

/-- An index of the output array is in point t's block iff each coordinate is in the block's range. -/
theorem mem_blk1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v56).slice (win1_2.rect t)).set ↔ _
  rw [View.set_slice_whole, Rect.mem_set_unit]
  exact Iff.rfl

/-- Row r of the output is written back by point r / 2000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, e4, e5⟩ := idx1 t
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    rw [e4, ht]; omega
  | ⟨1, _⟩ =>
    show win1_2.index t (1 : Fin 2) * 128 ≤ (i 1).val ∧ (i 1).val < win1_2.index t (1 : Fin 2) * 128 + 128
    rw [e5]; omega

/-- Region 1 leaves the product in its output array. -/
theorem region1_value : (dat1 (F := Ideal) V c).arrAt 2 cfg1.N = prod1 (V c main_v55) (V c main_arg6) :=
  (dat1 (F := Ideal) V c).arrAt_eq_of_cover 2 (prod1 (V c main_v55) (V c main_arg6)) (fun t _ => flushed1 V c t) cover1

/-! ## Region 2: one point, every block its whole array -/

/-- A [1,128] row times a [128,4096] matrix, plus a [1,4096] row, index by index. -/
abbrev affine2 (A : S1x128.Idx → EReal) (B : S128x4096.Idx → EReal) (C : S1x4096.Idx → EReal) : S1x4096.Idx → EReal := fun j =>
  (∑ k : Fin 128, A (ix2 (j 0) k) * B (ix2 k (j 1))) + C j

/-- Every block index of every window is zero. -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The row operand's block is its whole array. -/
theorem blk2_0 (t : Fin cfg2.N) (x i : S1x128.Idx) (h0 : (i 0).val = (x 0).val) (h1 : (i 1).val = (x 1).val) :
    (iblk2 (F := Ideal) V c 0 t : Vec Ideal S1x128 .f32) x = (V c main_v83 : S1x128.Idx → EReal) i := by
  obtain ⟨e0, e1, -, -, -, -, -, -⟩ := idx2 t
  unfold iblk2
  rw [View.read_apply]
  show V c main_v83 _ = V c main_v83 _
  congr 1
  funext a
  apply Fin.ext
  match a with
  | ⟨0, _⟩ => show win2_0.index t (0 : Fin 2) * 1 + 1 * (x 0).val = (i 0).val; rw [e0, h0]; omega
  | ⟨1, _⟩ => show win2_0.index t (1 : Fin 2) * 128 + 1 * (x 1).val = (i 1).val; rw [e1, h1]; omega

/-- The matrix operand's block is its whole array. -/
theorem blk2_1 (t : Fin cfg2.N) (x i : S128x4096.Idx) (h0 : (i 0).val = (x 0).val) (h1 : (i 1).val = (x 1).val) :
    (iblk2 (F := Ideal) V c 1 t : Vec Ideal S128x4096 .f32) x = (V c main_arg8 : S128x4096.Idx → EReal) i := by
  obtain ⟨-, -, e2, e3, -, -, -, -⟩ := idx2 t
  unfold iblk2
  rw [View.read_apply]
  show V c main_arg8 _ = V c main_arg8 _
  congr 1
  funext a
  apply Fin.ext
  match a with
  | ⟨0, _⟩ => show win2_1.index t (0 : Fin 2) * 128 + 1 * (x 0).val = (i 0).val; rw [e2, h0]; omega
  | ⟨1, _⟩ => show win2_1.index t (1 : Fin 2) * 4096 + 1 * (x 1).val = (i 1).val; rw [e3, h1]; omega

/-- The added row's block is its whole array. -/
theorem blk2_2 (t : Fin cfg2.N) (x i : S1x4096.Idx) (h0 : (i 0).val = (x 0).val) (h1 : (i 1).val = (x 1).val) :
    (iblk2 (F := Ideal) V c 2 t : Vec Ideal S1x4096 .f32) x = (V c main_v84 : S1x4096.Idx → EReal) i := by
  obtain ⟨-, -, -, -, e4, e5, -, -⟩ := idx2 t
  unfold iblk2
  rw [View.read_apply]
  show V c main_v84 _ = V c main_v84 _
  congr 1
  funext a
  apply Fin.ext
  match a with
  | ⟨0, _⟩ => show win2_2.index t (0 : Fin 2) * 1 + 1 * (x 0).val = (i 0).val; rw [e4, h0]; omega
  | ⟨1, _⟩ => show win2_2.index t (1 : Fin 2) * 4096 + 1 * (x 1).val = (i 1).val; rw [e5, h1]; omega

/-- What the point writes back is the whole result. -/
theorem flushed2 (t : Fin cfg2.N) :
    (dat2 (F := Ideal) V c).flushed 3 t
      = ((cfg2.win 3).blk t).view.read (Elt Ideal) (affine2 (V c main_v83) (V c main_arg8) (V c main_v84)) := by
  show (cfg2.win 3).cut (grid2.coords t) ((dat2 (F := Ideal) V c).after 3 t) = _
  rw [after2_3]
  unfold out2_3
  rw [View.canon_unit_zero hz]
  simp only [View.ld_unit_zero (S := S1x128) hz, View.ld_unit_zero (S := S128x4096) hz, View.ld_unit_zero (S := S1x4096) hz]
  obtain ⟨-, -, -, -, -, -, e6, e7⟩ := idx2 t
  funext j
  refine (pay2 (iblk2 (F := Ideal) V c 0 t) (iblk2 (F := Ideal) V c 1 t) (iblk2 (F := Ideal) V c 2 t) (win2_3.xinj (grid2.coords t) j)).trans ?_
  show _ = affine2 (V c main_v83) (V c main_arg8) (V c main_v84) (((cfg2.win 3).blk t).view.emb j)
  have h0 : win2_3.index t (0 : Fin 2) * 1 + 1 * (j 0).val = (j 0).val := by rw [e6]; omega
  have h1 : win2_3.index t (1 : Fin 2) * 4096 + 1 * (j 1).val = (j 1).val := by rw [e7]; omega
  refine congr (congrArg HAdd.hAdd (Finset.sum_congr rfl fun k _ => ?_)) (blk2_2 V c t _ _ ?_ ?_)
  · refine congr (congrArg HMul.hMul (blk2_0 V c t _ _ ?_ rfl)) (blk2_1 V c t _ _ rfl ?_)
    · exact h0
    · exact h1
  · exact h0
  · exact h1

/-- An index of the output array is in the point's block iff each coordinate is in the block's range. -/
theorem mem_blk2 (t : Fin cfg2.N) (i : S1x4096.Idx) :
    i ∈ ((cfg2.win 3).blk t).view.set ↔ ∀ a : Fin 2, win2_3.index t a * S1x4096.size a ≤ (i a).val
      ∧ (i a).val < win2_3.index t a * S1x4096.size a + S1x4096.size a := by
  show i ∈ ((View.whole main_v85).slice (win2_3.rect t)).set ↔ _
  rw [View.set_slice_whole, Rect.mem_set_unit]
  exact Iff.rfl

/-- The one point's block is the whole output. -/
theorem cover2 (i : S1x4096.Idx) :
    ∃ t : Fin cfg2.N, (cfg2.win 3).flush t = true ∧ i ∈ ((cfg2.win 3).blk t).view.set := by
  have hi0 : (i 0).val < 1 := (i 0).isLt
  have hi1 : (i 1).val < 4096 := (i 1).isLt
  have hN : cfg2.N = 1 := N_2
  obtain ⟨t, ht⟩ : ∃ t : Fin cfg2.N, t.val = 0 := ⟨⟨0, by rw [hN]; omega⟩, rfl⟩
  obtain ⟨-, -, -, -, -, -, e6, e7⟩ := idx2 t
  refine ⟨t, flush2_3 t, ?_⟩
  rw [mem_blk2]
  intro a
  match a with
  | ⟨0, _⟩ =>
    show win2_3.index t (0 : Fin 2) * 1 ≤ (i 0).val ∧ (i 0).val < win2_3.index t (0 : Fin 2) * 1 + 1
    rw [e6]; omega
  | ⟨1, _⟩ =>
    show win2_3.index t (1 : Fin 2) * 4096 ≤ (i 1).val ∧ (i 1).val < win2_3.index t (1 : Fin 2) * 4096 + 4096
    rw [e7]; omega

/-- Region 2 leaves the row times the matrix, plus the added row, in its output array. -/
theorem region2_value : (dat2 (F := Ideal) V c).arrAt 3 cfg2.N = affine2 (V c main_v83) (V c main_arg8) (V c main_v84) :=
  (dat2 (F := Ideal) V c).arrAt_eq_of_cover 3 (affine2 (V c main_v83) (V c main_arg8) (V c main_v84)) (fun t _ => flushed2 V c t) cover2

end Cert.KernelDots

end
-- ==== Proof.KernelValue.lean ====
/-
  The idealized kernel's result as a function of its arguments.

  The buffer contents at the boundaries of the kernel's nine segments are a fold from the launch memory (`W0` … `W9`):
  a host stretch applies its operations, a region replaces its output array by what its write-backs leave. Read one
  boundary at a time: the embedding lookup, the edge list and the edge weights hold the reference's stages; the first
  region leaves the product h · W1, which is the reference's first `dot_general`; the next stretches leave the first
  layer; the second region leaves its product with W2; the last stretch leaves the node features z — the reference's
  stage `val_main_v102` of the arguments — and the mean of its looked-up rows; the third region leaves the mean's product
  with Wc plus the bias. At column c of the one result row that is

      ( ∑ k < 128, ((0 + ∑ p < 1024, z[node p, k]) / 1024) · Wc[k, c] ) + bc[c].
-/
import proofs.«126523_j28767690948710_1_alg».proof.Proof.KernelHost
import proofs.«126523_j28767690948710_1_alg».proof.Proof.KernelKeep
import proofs.«126523_j28767690948710_1_alg».proof.Proof.KernelDots

set_option maxRecDepth 16384

noncomputable section

namespace Cert.KernelValue

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-! ## Before the first region (`W1`, `W2`, `W3`) -/

theorem e1_v13 : W1 m ρ c (Proc.devRef .tc main_v13) = Cert.ReferenceIdeal.ReadP.val_main_v14 (F := Ideal) (m ((c : Thread nD τ).loc main_arg1)) := Cert.KernelHost.sA_v13 (W0 m ρ c) _ rfl
theorem e1_v14 : W1 m ρ c (Proc.devRef .tc main_v14) = Cert.ReferenceIdeal.ReadP.val_main_v15 (F := Ideal) (m ((c : Thread nD τ).loc main_arg1)) := Cert.KernelHost.sA_v14 (W0 m ρ c) _ rfl
theorem e1_v7 : W1 m ρ c (Proc.devRef .tc main_v7) = Cert.ReferenceIdeal.ReadP.val_main_v7 (F := Ideal) (m ((c : Thread nD τ).loc main_arg0)) (m ((c : Thread nD τ).loc main_arg3)) := Cert.KernelHost.sA_v7 (W0 m ρ c) _ _ rfl rfl

theorem e2_v22 : W2 m ρ c (Proc.devRef .tc main_v22) = Cert.ReferenceIdeal.ReadP.val_main_v23 (F := Ideal) (m ((c : Thread nD τ).loc main_arg1)) :=
  Cert.KernelHost.sB_v22 (W1 m ρ c) _ (Cert.KernelHost.sA_v20 (W0 m ρ c) _ rfl) (Cert.KernelHost.sA_v21 (W0 m ρ c) _ rfl) (Cert.KernelHost.sA_cst3 (W0 m ρ c))
theorem e2_v13 : W2 m ρ c (Proc.devRef .tc main_v13) = Cert.ReferenceIdeal.ReadP.val_main_v14 (F := Ideal) (m ((c : Thread nD τ).loc main_arg1)) := (Cert.KernelKeep.keepB_v13 (W1 m ρ c)).trans (e1_v13 m ρ c)
theorem e2_v14 : W2 m ρ c (Proc.devRef .tc main_v14) = Cert.ReferenceIdeal.ReadP.val_main_v15 (F := Ideal) (m ((c : Thread nD τ).loc main_arg1)) := (Cert.KernelKeep.keepB_v14 (W1 m ρ c)).trans (e1_v14 m ρ c)

theorem e3_v37 : W3 m ρ c (Proc.devRef .tc main_v37) = Cert.ReferenceIdeal.ReadP.val_main_v38 (F := Ideal) (m ((c : Thread nD τ).loc main_arg1)) :=
  Cert.KernelHost.sC_v37 (W2 m ρ c) _ (e2_v13 m ρ c) (e2_v14 m ρ c) (e2_v22 m ρ c)
theorem e3_v13 : W3 m ρ c (Proc.devRef .tc main_v13) = Cert.ReferenceIdeal.ReadP.val_main_v14 (F := Ideal) (m ((c : Thread nD τ).loc main_arg1)) := (Cert.KernelKeep.keepC_v13 (W2 m ρ c)).trans (e2_v13 m ρ c)
theorem e3_v14 : W3 m ρ c (Proc.devRef .tc main_v14) = Cert.ReferenceIdeal.ReadP.val_main_v15 (F := Ideal) (m ((c : Thread nD τ).loc main_arg1)) := (Cert.KernelKeep.keepC_v14 (W2 m ρ c)).trans (e2_v14 m ρ c)
theorem e3_v7 : W3 m ρ c (Proc.devRef .tc main_v7) = Cert.ReferenceIdeal.ReadP.val_main_v7 (F := Ideal) (m ((c : Thread nD τ).loc main_arg0)) (m ((c : Thread nD τ).loc main_arg3)) :=
  (Cert.KernelKeep.keepC_v7 (W2 m ρ c)).trans ((Cert.KernelKeep.keepB_v7 (W1 m ρ c)).trans (e1_v7 m ρ c))

/-- An argument no stretch before the first region writes. -/
theorem e3_arg2 : W3 m ρ c (Proc.devRef .tc main_arg2) = (m ((c : Thread nD τ).loc main_arg2)) :=
  (Cert.KernelKeep.keepC_arg2 (W2 m ρ c)).trans ((Cert.KernelKeep.keepB_arg2 (W1 m ρ c)).trans (Cert.KernelKeep.keepA_arg2 (W0 m ρ c)))
theorem e3_arg4 : W3 m ρ c (Proc.devRef .tc main_arg4) = (m ((c : Thread nD τ).loc main_arg4)) :=
  (Cert.KernelKeep.keepC_arg4 (W2 m ρ c)).trans ((Cert.KernelKeep.keepB_arg4 (W1 m ρ c)).trans (Cert.KernelKeep.keepA_arg4 (W0 m ρ c)))
theorem e3_arg5 : W3 m ρ c (Proc.devRef .tc main_arg5) = (m ((c : Thread nD τ).loc main_arg5)) :=
  (Cert.KernelKeep.keepC_arg5 (W2 m ρ c)).trans ((Cert.KernelKeep.keepB_arg5 (W1 m ρ c)).trans (Cert.KernelKeep.keepA_arg5 (W0 m ρ c)))
theorem e3_arg6 : W3 m ρ c (Proc.devRef .tc main_arg6) = (m ((c : Thread nD τ).loc main_arg6)) :=
  (Cert.KernelKeep.keepC_arg6 (W2 m ρ c)).trans ((Cert.KernelKeep.keepB_arg6 (W1 m ρ c)).trans (Cert.KernelKeep.keepA_arg6 (W0 m ρ c)))
theorem e3_arg7 : W3 m ρ c (Proc.devRef .tc main_arg7) = (m ((c : Thread nD τ).loc main_arg7)) :=
  (Cert.KernelKeep.keepC_arg7 (W2 m ρ c)).trans ((Cert.KernelKeep.keepB_arg7 (W1 m ρ c)).trans (Cert.KernelKeep.keepA_arg7 (W0 m ρ c)))
theorem e3_arg8 : W3 m ρ c (Proc.devRef .tc main_arg8) = (m ((c : Thread nD τ).loc main_arg8)) :=
  (Cert.KernelKeep.keepC_arg8 (W2 m ρ c)).trans ((Cert.KernelKeep.keepB_arg8 (W1 m ρ c)).trans (Cert.KernelKeep.keepA_arg8 (W0 m ρ c)))
theorem e3_arg9 : W3 m ρ c (Proc.devRef .tc main_arg9) = (m ((c : Thread nD τ).loc main_arg9)) :=
  (Cert.KernelKeep.keepC_arg9 (W2 m ρ c)).trans ((Cert.KernelKeep.keepB_arg9 (W1 m ρ c)).trans (Cert.KernelKeep.keepA_arg9 (W0 m ρ c)))

/-! ## The first region and the stretches after it (`W4`, `W5`, `W6`) -/

/-- The first region leaves h · W1: the reference's first product. -/
theorem e4_v38 : W4 m ρ c (Proc.devRef .tc main_v38) = Cert.ReferenceIdeal.ReadP.val_main_v8 (F := Ideal) (m ((c : Thread nD τ).loc main_arg0)) (m ((c : Thread nD τ).loc main_arg3)) (m ((c : Thread nD τ).loc main_arg4)) := by
  refine (W4_arr m ρ c (2 : Fin cfg0.W)).trans ((Cert.KernelDots.region0_value (V3 m ρ) c).trans ?_)
  show Cert.KernelDots.prod0 (W3 m ρ c (Proc.devRef .tc main_v7)) (W3 m ρ c (Proc.devRef .tc main_arg4)) = _
  rw [e3_v7, e3_arg4]
  funext j
  rw [Cert.ReferenceIdeal.ReadP.val_main_v8_apply]
  exact Finset.sum_congr rfl fun k _ => congr (congrArg HMul.hMul (congrArg _ (funext fun a => Fin.ext (by match a with | ⟨0, _⟩ => rfl | ⟨1, _⟩ => rfl)))) (congrArg _ (funext fun a => Fin.ext (by match a with | ⟨0, _⟩ => rfl | ⟨1, _⟩ => rfl)))

theorem e4_v13 : W4 m ρ c (Proc.devRef .tc main_v13) = Cert.ReferenceIdeal.ReadP.val_main_v14 (F := Ideal) (m ((c : Thread nD τ).loc main_arg1)) :=
  (W4_of_ne m ρ c main_v13 (by decide)).trans (e3_v13 m ρ c)
theorem e4_v14 : W4 m ρ c (Proc.devRef .tc main_v14) = Cert.ReferenceIdeal.ReadP.val_main_v15 (F := Ideal) (m ((c : Thread nD τ).loc main_arg1)) :=
  (W4_of_ne m ρ c main_v14 (by decide)).trans (e3_v14 m ρ c)
theorem e4_v37 : W4 m ρ c (Proc.devRef .tc main_v37) = Cert.ReferenceIdeal.ReadP.val_main_v38 (F := Ideal) (m ((c : Thread nD τ).loc main_arg1)) :=
  (W4_of_ne m ρ c main_v37 (by decide)).trans (e3_v37 m ρ c)
theorem e4_arg2 : W4 m ρ c (Proc.devRef .tc main_arg2) = (m ((c : Thread nD τ).loc main_arg2)) :=
  (W4_of_ne m ρ c main_arg2 (by decide)).trans (e3_arg2 m ρ c)
theorem e4_arg5 : W4 m ρ c (Proc.devRef .tc main_arg5) = (m ((c : Thread nD τ).loc main_arg5)) :=
  (W4_of_ne m ρ c main_arg5 (by decide)).trans (e3_arg5 m ρ c)
theorem e4_arg6 : W4 m ρ c (Proc.devRef .tc main_arg6) = (m ((c : Thread nD τ).loc main_arg6)) :=
  (W4_of_ne m ρ c main_arg6 (by decide)).trans (e3_arg6 m ρ c)
theorem e4_arg7 : W4 m ρ c (Proc.devRef .tc main_arg7) = (m ((c : Thread nD τ).loc main_arg7)) :=
  (W4_of_ne m ρ c main_arg7 (by decide)).trans (e3_arg7 m ρ c)
theorem e4_arg8 : W4 m ρ c (Proc.devRef .tc main_arg8) = (m ((c : Thread nD τ).loc main_arg8)) :=
  (W4_of_ne m ρ c main_arg8 (by decide)).trans (e3_arg8 m ρ c)
theorem e4_arg9 : W4 m ρ c (Proc.devRef .tc main_arg9) = (m ((c : Thread nD τ).loc main_arg9)) :=
  (W4_of_ne m ρ c main_arg9 (by decide)).trans (e3_arg9 m ρ c)

theorem e6_v55 : W6 m ρ c (Proc.devRef .tc main_v55) = Cert.ReferenceIdeal.ReadP.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  Cert.KernelHost.sE_v55 (W5 m ρ c) _ _ _ _ _
    (Cert.KernelHost.sD_v54 (W4 m ρ c) _ _ _ _ _ (e4_v38 m ρ c) (e4_v13 m ρ c) (e4_v14 m ρ c) (e4_v37 m ρ c) (e4_arg5 m ρ c))
theorem e6_v13 : W6 m ρ c (Proc.devRef .tc main_v13) = Cert.ReferenceIdeal.ReadP.val_main_v14 (F := Ideal) (m ((c : Thread nD τ).loc main_arg1)) :=
  (Cert.KernelKeep.keepE_v13 (W5 m ρ c)).trans ((Cert.KernelKeep.keepD_v13 (W4 m ρ c)).trans (e4_v13 m ρ c))
theorem e6_v14 : W6 m ρ c (Proc.devRef .tc main_v14) = Cert.ReferenceIdeal.ReadP.val_main_v15 (F := Ideal) (m ((c : Thread nD τ).loc main_arg1)) :=
  (Cert.KernelKeep.keepE_v14 (W5 m ρ c)).trans ((Cert.KernelKeep.keepD_v14 (W4 m ρ c)).trans (e4_v14 m ρ c))
theorem e6_v37 : W6 m ρ c (Proc.devRef .tc main_v37) = Cert.ReferenceIdeal.ReadP.val_main_v38 (F := Ideal) (m ((c : Thread nD τ).loc main_arg1)) :=
  (Cert.KernelKeep.keepE_v37 (W5 m ρ c)).trans ((Cert.KernelKeep.keepD_v37 (W4 m ρ c)).trans (e4_v37 m ρ c))
theorem e6_arg2 : W6 m ρ c (Proc.devRef .tc main_arg2) = (m ((c : Thread nD τ).loc main_arg2)) :=
  (Cert.KernelKeep.keepE_arg2 (W5 m ρ c)).trans ((Cert.KernelKeep.keepD_arg2 (W4 m ρ c)).trans (e4_arg2 m ρ c))
theorem e6_arg6 : W6 m ρ c (Proc.devRef .tc main_arg6) = (m ((c : Thread nD τ).loc main_arg6)) :=
  (Cert.KernelKeep.keepE_arg6 (W5 m ρ c)).trans ((Cert.KernelKeep.keepD_arg6 (W4 m ρ c)).trans (e4_arg6 m ρ c))
theorem e6_arg7 : W6 m ρ c (Proc.devRef .tc main_arg7) = (m ((c : Thread nD τ).loc main_arg7)) :=
  (Cert.KernelKeep.keepE_arg7 (W5 m ρ c)).trans ((Cert.KernelKeep.keepD_arg7 (W4 m ρ c)).trans (e4_arg7 m ρ c))
theorem e6_arg8 : W6 m ρ c (Proc.devRef .tc main_arg8) = (m ((c : Thread nD τ).loc main_arg8)) :=
  (Cert.KernelKeep.keepE_arg8 (W5 m ρ c)).trans ((Cert.KernelKeep.keepD_arg8 (W4 m ρ c)).trans (e4_arg8 m ρ c))
theorem e6_arg9 : W6 m ρ c (Proc.devRef .tc main_arg9) = (m ((c : Thread nD τ).loc main_arg9)) :=
  (Cert.KernelKeep.keepE_arg9 (W5 m ρ c)).trans ((Cert.KernelKeep.keepD_arg9 (W4 m ρ c)).trans (e4_arg9 m ρ c))

/-! ## The second region and the last stretch (`W7`, `W8`) -/

/-- The second region leaves the first layer's product with W2: the reference's second product. -/
theorem e7_v56 : W7 m ρ c (Proc.devRef .tc main_v56) = Cert.ReferenceIdeal.ReadP.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c (2 : Fin cfg1.W)).trans ((Cert.KernelDots.region1_value (V6 m ρ) c).trans ?_)
  show Cert.KernelDots.prod1 (W6 m ρ c (Proc.devRef .tc main_v55)) (W6 m ρ c (Proc.devRef .tc main_arg6)) = _
  rw [e6_v55, e6_arg6]
  funext j
  rw [Cert.ReferenceIdeal.ReadP.val_main_v56_apply]
  exact Finset.sum_congr rfl fun k _ => congr (congrArg HMul.hMul (congrArg _ (funext fun a => Fin.ext (by match a with | ⟨0, _⟩ => rfl | ⟨1, _⟩ => rfl)))) (congrArg _ (funext fun a => Fin.ext (by match a with | ⟨0, _⟩ => rfl | ⟨1, _⟩ => rfl)))

theorem e7_v13 : W7 m ρ c (Proc.devRef .tc main_v13) = Cert.ReferenceIdeal.ReadP.val_main_v14 (F := Ideal) (m ((c : Thread nD τ).loc main_arg1)) :=
  (W7_of_ne m ρ c main_v13 (by decide)).trans (e6_v13 m ρ c)
theorem e7_v14 : W7 m ρ c (Proc.devRef .tc main_v14) = Cert.ReferenceIdeal.ReadP.val_main_v15 (F := Ideal) (m ((c : Thread nD τ).loc main_arg1)) :=
  (W7_of_ne m ρ c main_v14 (by decide)).trans (e6_v14 m ρ c)
theorem e7_v37 : W7 m ρ c (Proc.devRef .tc main_v37) = Cert.ReferenceIdeal.ReadP.val_main_v38 (F := Ideal) (m ((c : Thread nD τ).loc main_arg1)) :=
  (W7_of_ne m ρ c main_v37 (by decide)).trans (e6_v37 m ρ c)
theorem e7_arg2 : W7 m ρ c (Proc.devRef .tc main_arg2) = (m ((c : Thread nD τ).loc main_arg2)) :=
  (W7_of_ne m ρ c main_arg2 (by decide)).trans (e6_arg2 m ρ c)
theorem e7_arg7 : W7 m ρ c (Proc.devRef .tc main_arg7) = (m ((c : Thread nD τ).loc main_arg7)) :=
  (W7_of_ne m ρ c main_arg7 (by decide)).trans (e6_arg7 m ρ c)
theorem e7_arg8 : W7 m ρ c (Proc.devRef .tc main_arg8) = (m ((c : Thread nD τ).loc main_arg8)) :=
  (W7_of_ne m ρ c main_arg8 (by decide)).trans (e6_arg8 m ρ c)
theorem e7_arg9 : W7 m ρ c (Proc.devRef .tc main_arg9) = (m ((c : Thread nD τ).loc main_arg9)) :=
  (W7_of_ne m ρ c main_arg9 (by decide)).trans (e6_arg9 m ρ c)

/-- The node features: the reference's stage of the arguments. -/
theorem e8_v72 : W8 m ρ c (Proc.devRef .tc main_v72) = Cert.ReferenceIdeal.ReadP.val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  Cert.KernelHost.sF_v72 (W7 m ρ c) _ _ _ _ _ _ _ (e7_v56 m ρ c) ((e7_v13 m ρ c).trans (Cert.KernelHost.row_again _))
    ((e7_v14 m ρ c).trans (Cert.KernelHost.col_again _)) ((e7_v37 m ρ c).trans (Cert.KernelHost.norm_again _)) (e7_arg7 m ρ c)

theorem e8_v83 : W8 m ρ c (Proc.devRef .tc main_v83) = Cert.KernelHost.zmean (Cert.ReferenceIdeal.ReadP.val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) :=
  (Cert.KernelHost.sF_v83_of_v72 (W7 m ρ c) _ (e7_arg2 m ρ c)).trans (congrArg (fun z => Cert.KernelHost.zmean z _) (e8_v72 m ρ c))

theorem e8_v84 : W8 m ρ c (Proc.devRef .tc main_v84) = shapeCast S1x4096 (m ((c : Thread nD τ).loc main_arg9)) shapeCasts_S4096_S1x4096 :=
  Cert.KernelHost.sF_v84 (W7 m ρ c) _ (e7_arg9 m ρ c)

theorem e8_arg8 : W8 m ρ c (Proc.devRef .tc main_arg8) = (m ((c : Thread nD τ).loc main_arg8)) := (Cert.KernelKeep.keepF_arg8 (W7 m ρ c)).trans (e7_arg8 m ρ c)

/-! ## The third region: the result -/

/-- The kernel's result at column `j 1` of its one row. -/
theorem result_apply (j : S1x4096.Idx) :
    W9 m ρ c (Proc.devRef .tc main_v85) j
      = (∑ k : Fin 128,
          Ideal.div (Ideal.ofBits .f32 0x00000000#32 + ∑ p : Fin 1024,
              Cert.ReferenceIdeal.ReadP.val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (ix2 (Cert.Spec.posNode (m ((c : Thread nD τ).loc main_arg2)) p) k))
            (Ideal.ofBits .f32 0x44800000#32) * (m ((c : Thread nD τ).loc main_arg8)) (ix2 k (j 1)))
        + (m ((c : Thread nD τ).loc main_arg9)) (ix1 (j 1)) := by
  have h9 : W9 m ρ c (Proc.devRef .tc main_v85)
      = Cert.KernelDots.affine2 (W8 m ρ c (Proc.devRef .tc main_v83)) (W8 m ρ c (Proc.devRef .tc main_arg8)) (W8 m ρ c (Proc.devRef .tc main_v84)) :=
    (W9_arr m ρ c (3 : Fin cfg2.W)).trans (Cert.KernelDots.region2_value (V8 m ρ) c)
  rw [h9, e8_v83, e8_arg8, e8_v84]
  obtain ⟨u, q, rfl⟩ : ∃ (u : Fin 1) (q : Fin 4096), j = ix2 u q := ⟨j 0, j 1, eq_ix2 j⟩
  obtain rfl : u = 0 := Subsingleton.elim _ _
  show (∑ k : Fin 128, Cert.KernelHost.zmean (Cert.ReferenceIdeal.ReadP.val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (ix2 (0 : Fin 1) k) * (m ((c : Thread nD τ).loc main_arg8)) (ix2 k q))
        + shapeCast S1x4096 (m ((c : Thread nD τ).loc main_arg9)) shapeCasts_S4096_S1x4096 (ix2 (0 : Fin 1) q)
      = (∑ k : Fin 128,
          Ideal.div (Ideal.ofBits .f32 0x00000000#32 + ∑ p : Fin 1024,
              Cert.ReferenceIdeal.ReadP.val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (ix2 (Cert.Spec.posNode (m ((c : Thread nD τ).loc main_arg2)) p) k))
            (Ideal.ofBits .f32 0x44800000#32) * (m ((c : Thread nD τ).loc main_arg8)) (ix2 k q))
        + (m ((c : Thread nD τ).loc main_arg9)) (ix1 q)
  rw [Cert.LibXnorHost.row_of_vec]
  refine congrArg₂ (· + ·) (Finset.sum_congr rfl fun k _ => ?_) rfl
  rw [Cert.KernelHost.zmean_apply]

end Cert.KernelValue

end
-- ==== Proof.RefValue.lean ====
/-
  The reference program's result is the last stage of its reading one operation at a time.

  Every weakly fair execution of the reference program from a memory `m` terminates, on every device, with the result
  buffer holding the program's operations composed into one term of the arguments' launch contents, and with the
  arguments unchanged. The stages `val_main_v0, …, val_main_v117` are the same operations, each named and applied to the
  stages before it; read at the arguments' launch contents and unfolded one after the other, they give that composed
  term. So the execution ends with the result buffer at the last stage, `val_main_v117`, of the launch contents.
-/
import proofs.«126523_j28767690948710_1_alg».proof.Proof.RefRun
import proofs.«126523_j28767690948710_1_alg».proof.Proof.RefRead

noncomputable section

namespace Cert.RefValue

open Cert.ReferenceIdeal Cert.ReferenceIdeal.Gen Idealize.ShloMosaic Idealize.ShloMosaic.TcCoe Idealize.SL.Sem

set_option maxRecDepth 8192 in
/-- The composed term of the result is the last stage read at the arguments' launch contents: both are the same
    operations applied in the same order, the stages merely naming each intermediate value. -/
theorem res_eq (m : (ℓ : Loc nD τ sig) → Buf (Elt Ideal) ℓ) (c : Dev nD) :
    Cert.ReferenceIdeal.ValueP.res_main_v117 (F := Ideal) m c
      = Cert.ReferenceIdeal.ReadP.val_main_v117 (F := Ideal)
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  unfold Cert.ReferenceIdeal.ValueP.res_main_v117; rfl

/-- On every device, from any memory with zero counters: every weakly fair execution of the reference program
    terminates with its result at the last stage of the arguments' launch contents, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117)
        = Cert.ReferenceIdeal.ReadP.val_main_v117 (F := Ideal)
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (res_eq m c), (h c).2⟩)
    (Cert.ReferenceIdeal.ValueP.run (F := Ideal) m ρ)

end Cert.RefValue

end
-- ==== Proof.RefTail.lean ====
/-
  The idealized reference's result, read at one index.

  The reference ends: z (a [50000,128] array of node features) is multiplied by a [128,4096] matrix W and a bias b
  (one entry per column) is added to every row; the rows at 1024 positions are looked up, a negative position counted
  from the end and every position clamped into [0, 49999]; the 1024 rows are summed column by column, starting from
  the word of zero; and each column sum is divided by the word of 1024. Read at column c that is

      ( 0 + ∑ p < 1024, ( (∑ k < 128, z[node p, k] * W[k, c]) + b[c] ) ) / 1024,

  where node p is the node position p looks up.

    * `wrapped_apply`: the column of wrapped positions at row t is the wrapped entry t.
    * `rows_apply`: the looked-up row t at column c is the biased product's row (node t) at column c.
    * `biased_apply`: the biased product at (n, c) is (∑ k, z[n, k] * W[k, c]) + b[c].
    * `ref_tail`: the result at an index, as displayed above.
-/
import proofs.«126523_j28767690948710_1_alg».proof.Proof.RefRead
import proofs.«126523_j28767690948710_1_alg».proof.Proof.LibGatherRows
import proofs.«126523_j28767690948710_1_alg».proof.Proof.Spec

noncomputable section

namespace Cert.RefTail

open Cert.ReferenceIdeal Cert.ReferenceIdeal.ReadP Idealize.ShloMosaic Idealize.ShloMosaic.ValueIdx

/-- The column of wrapped positions, read at row t of a [1024, 4096] index: entry t of the position vector, with
    50000 added when it is negative. -/
theorem wrapped_apply (x2 : (⟨S1024, .i32⟩ : BufTy).Contents (Elt Ideal)) (y : S1024x4096.Idx) :
    val_main_v112 (F := Ideal) x2 (Cert.LibGatherRows.rowIdx y) = Cert.Spec.wrapPos x2 (y 0) := by
  rw [val_main_v112_apply, val_main_v111_apply, val_main_v108_apply, val_main_v110_apply, val_main_v107_apply,
    val_main_v109_apply, val_main_c_22_apply, val_main_c_23_apply]
  have hi : idx_main_v112 (Cert.LibGatherRows.rowIdx y) = ix1 (y 0) :=
    funext fun a => Fin.ext (by match a with | ⟨0, _⟩ => rfl)
  rw [hi]
  rfl

/-- The looked-up rows at (t, c): the biased product at the row of the node position t looks up, column c. -/
theorem rows_apply (x0 : (⟨S50000x1, .i32⟩ : BufTy).Contents (Elt Ideal)) (x1 : (⟨S2x800000, .i32⟩ : BufTy).Contents (Elt Ideal)) (x2 : (⟨S1024, .i32⟩ : BufTy).Contents (Elt Ideal)) (x3 : (⟨S4096x128, .f32⟩ : BufTy).Contents (Elt Ideal)) (x4 : (⟨S128x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S128x4096, .f32⟩ : BufTy).Contents (Elt Ideal)) (x9 : (⟨S4096, .f32⟩ : BufTy).Contents (Elt Ideal)) (y : S1024x4096.Idx) :
    val_main_v113 (F := Ideal) x0 x1 x2 x3 x4 x5 x6 x7 x8 x9 y
      = val_main_v106 (F := Ideal) x0 x1 x3 x4 x5 x6 x7 x8 x9 (ix2 (Cert.Spec.posNode x2 (y 0)) (y 1)) := by
  unfold val_main_v113
  generalize val_main_v106 (F := Ideal) x0 x1 x3 x4 x5 x6 x7 x8 x9 = w
  refine (Cert.LibGatherRows.gather_rows_apply (N := 50000) (D := 4096) (R := 1024) (by decide)
    Gen.gather_S50000x4096_S1024x1_S1024x4096_1_0_n_n_0_1_14096_wf w (val_main_v112 (F := Ideal) x2) y).trans ?_
  refine congrArg w (funext fun a => Fin.ext ?_)
  match a with
  | ⟨0, _⟩ =>
    show min (val_main_v112 (F := Ideal) x2 (Cert.LibGatherRows.rowIdx y)).toInt.toNat (50000 - 1)
      = min (Cert.Spec.wrapPos x2 (y 0)).toInt.toNat (50000 - 1)
    rw [wrapped_apply]
  | ⟨1, _⟩ => rfl

/-- The biased product at (n, c): row n of z against column c of the matrix, plus entry c of the bias. -/
theorem biased_apply (x0 : (⟨S50000x1, .i32⟩ : BufTy).Contents (Elt Ideal)) (x1 : (⟨S2x800000, .i32⟩ : BufTy).Contents (Elt Ideal)) (x3 : (⟨S4096x128, .f32⟩ : BufTy).Contents (Elt Ideal)) (x4 : (⟨S128x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S128x4096, .f32⟩ : BufTy).Contents (Elt Ideal)) (x9 : (⟨S4096, .f32⟩ : BufTy).Contents (Elt Ideal)) (n : Fin 50000) (c : Fin 4096) :
    val_main_v106 (F := Ideal) x0 x1 x3 x4 x5 x6 x7 x8 x9 (ix2 n c)
      = (∑ k : Fin 128, val_main_v102 (F := Ideal) x0 x1 x3 x4 x5 x6 x7 (ix2 n k) * x8 (ix2 k c)) + x9 (ix1 c) := by
  rw [val_main_v106_apply, val_main_v103_apply, val_main_v105_apply, val_main_v104_apply, Ideal.addf_def]
  generalize val_main_v102 (F := Ideal) x0 x1 x3 x4 x5 x6 x7 = z
  have hl : ∀ k : Fin 128, lidx_main_v103 (ix2 n c) k = ix2 n k := fun k =>
    funext fun a => Fin.ext (by match a with | ⟨0, _⟩ => rfl | ⟨1, _⟩ => rfl)
  have hr : ∀ k : Fin 128, ridx_main_v103 (ix2 n c) k = ix2 k c := fun k =>
    funext fun a => Fin.ext (by match a with | ⟨0, _⟩ => rfl | ⟨1, _⟩ => rfl)
  have hb : idx_main_v104 (idx_main_v105 (ix2 n c)) = ix1 c :=
    funext fun a => Fin.ext (by match a with | ⟨0, _⟩ => rfl)
  simp only [hl, hr, hb]

/-- The reference's result at an index: the mean over the 1024 positions of the biased product's looked-up rows,
    at that index's column. -/
theorem ref_tail (x0 : (⟨S50000x1, .i32⟩ : BufTy).Contents (Elt Ideal)) (x1 : (⟨S2x800000, .i32⟩ : BufTy).Contents (Elt Ideal)) (x2 : (⟨S1024, .i32⟩ : BufTy).Contents (Elt Ideal)) (x3 : (⟨S4096x128, .f32⟩ : BufTy).Contents (Elt Ideal)) (x4 : (⟨S128x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S128x4096, .f32⟩ : BufTy).Contents (Elt Ideal)) (x9 : (⟨S4096, .f32⟩ : BufTy).Contents (Elt Ideal)) (j : S1x4096.Idx) :
    val_main_v117 (F := Ideal) x0 x1 x2 x3 x4 x5 x6 x7 x8 x9 j
      = Ideal.div (Ideal.ofBits .f32 0x00000000#32 + ∑ p : Fin 1024,
            ((∑ k : Fin 128, val_main_v102 (F := Ideal) x0 x1 x3 x4 x5 x6 x7 (ix2 (Cert.Spec.posNode x2 p) k)
                * x8 (ix2 k (j 1))) + x9 (ix1 (j 1))))
          (Ideal.ofBits .f32 0x44800000#32) := by
  rw [val_main_v117_apply, val_main_v116_apply, val_main_cst_25_apply, val_main_v115_apply, val_main_v114_apply,
    val_main_cst_24_apply, Ideal.hostDivf_def, Ideal.ofBits_def, Ideal.ofBits_def]
  refine congrArg (fun s => Ideal.div (Ideal.ofBits .f32 0x00000000#32 + s) (Ideal.ofBits .f32 0x44800000#32))
    (Finset.sum_congr rfl fun p _ => ?_)
  rw [rows_apply]
  exact biased_apply x0 x1 x3 x4 x5 x6 x7 x8 x9 (Cert.Spec.posNode x2 p) (j 1)

end Cert.RefTail

end
-- ==== Proof.LibRealEntries.lean ====
/-
  When an entry of an array of extended reals is a real number — each fact stated once, over the library alone.

    * `sum_real`: a finite sum of reals is a real.
    * `ofBits_inf`: the 32-bit word 0x7F800000 is +∞.
    * `ofBool_eq_one`: the one-bit word made from a truth value is 1 only when the value is true.
    * `real_of_abs_lt_top`: an extended real x with max x (-x) < +∞ is a real.
    * `real_of_cmp`: the same, from the comparison bit "max x (-x) < the word of +∞" being 1 — the form in which a test
      "every entry is finite" states it.
-/
import Idealize.ShloMosaic.PureOps.Ideal

noncomputable section

namespace Cert.LibRealEntries

open Idealize.ShloMosaic

/-- A finite sum of reals is a real: the sum of the reals, by induction on the index set. -/
theorem sum_real {ι : Type} (s : Finset ι) (f : ι → EReal) (hf : ∀ k, ∃ r : ℝ, f k = (r : EReal)) :
    ∃ r : ℝ, ∑ k ∈ s, f k = (r : EReal) := by
  classical
  refine Finset.induction_on s ⟨0, by simp⟩ ?_
  intro k t hk ih
  obtain ⟨r, hr⟩ := ih
  obtain ⟨q, hq⟩ := hf k
  exact ⟨q + r, by rw [Finset.sum_insert hk, hr, hq, EReal.coe_add]⟩

/-- The word 0x7F800000 is +∞. -/
theorem ofBits_inf : Ideal.ofBits .f32 0x7F800000#32 = ⊤ := by simp [Ideal.ofBits, Ideal.ieee]

/-- A one-bit word made from a truth value is 1 only when the value is true. -/
theorem ofBool_eq_one (b : Bool) (h : BitVec.ofBool b = 1#1) : b = true := by
  cases b
  · exact absurd h (by decide)
  · rfl

/-- An extended real whose absolute value max x (-x) is below +∞ is a real: at -∞ and at +∞ that maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison bit |x| < (the word of +∞) being 1. -/
theorem real_of_cmp (x : EReal)
    (hx : Ideal.cmp .olt (max x (-x)) (Ideal.ofBits .f32 0x7F800000#32) = 1#1) : ∃ r : ℝ, x = (r : EReal) := by
  have hlt : max x (-x) < Ideal.ofBits .f32 0x7F800000#32 := of_decide_eq_true (ofBool_eq_one _ hx)
  rw [ofBits_inf] at hlt
  exact real_of_abs_lt_top x hlt

end Cert.LibRealEntries

end
-- ==== Proof.LibNodeFactor.lean ====
/-
  Two facts about the graph's bookkeeping values, over the library only.

  * The normalising factor `if x > 0 then 1/√x else 0` of an extended real `x` is never negative and never `⊤`: for a
    positive real it is the real `(√x)⁻¹`, at `⊤` it is `0`, and where `x` is not positive it is the `0` of the other branch.
  * A 32-bit node number that, read as a signed integer, is a node `n < 500 000` is not negative, so "count a negative
    number from the end" leaves it alone, and clamping it into `[0, 499 999]` gives `n` again.
-/
import Mathlib.Data.EReal.Operations
import Idealize.ShloMosaic.PureOps.Ideal
import Idealize.ShloMosaic.PureOps.Ideal.Laws

noncomputable section

namespace Cert.LibNodeFactor

open Idealize.ShloMosaic

/-- `1/√x` of an extended real `x > 0` is nonnegative and not `⊤`. -/
theorem rsqrt_bounds_of_pos (x : EReal) (hx : 0 < x) : 0 ≤ Ideal.rsqrt x ∧ Ideal.rsqrt x ≠ ⊤ := by
  induction x using EReal.rec with
  | bot => exact absurd hx (not_lt.mpr bot_le)
  | coe r =>
    have hr : 0 < r := by exact_mod_cast hx
    rw [Ideal.rsqrt_coe, if_neg (not_lt.mpr hr.le), if_neg hr.ne']
    exact ⟨EReal.coe_nonneg.mpr (inv_nonneg.mpr (Real.sqrt_nonneg r)), EReal.coe_ne_top _⟩
  | top =>
    rw [Ideal.rsqrt_top]
    exact ⟨le_rfl, EReal.zero_ne_top⟩

/-- The normalising factor — `1/√x` where `x` exceeds the zero word, the zero word elsewhere — is nonnegative and not `⊤`. -/
theorem factor_bounds (x : EReal) :
    0 ≤ Scalar.select (Ideal.cmp .ogt x (Ideal.ofBits .f32 0x00000000#32)) (Ideal.rsqrt x) (Ideal.ofBits .f32 0x00000000#32)
    ∧ Scalar.select (Ideal.cmp .ogt x (Ideal.ofBits .f32 0x00000000#32)) (Ideal.rsqrt x) (Ideal.ofBits .f32 0x00000000#32) ≠ ⊤ := by
  rw [Ideal.ofBits_zero_f32]
  unfold Scalar.select Ideal.cmp
  by_cases hx : (0 : EReal) < x
  · have h1 : BitVec.ofBool (decide ((0 : EReal) < x)) = 1 := by rw [decide_eq_true hx]; rfl
    rw [if_pos h1]
    exact rsqrt_bounds_of_pos x hx
  · have h0 : ¬ BitVec.ofBool (decide ((0 : EReal) < x)) = 1 := by rw [decide_eq_false hx]; decide
    rw [if_neg h0]
    exact ⟨le_rfl, EReal.zero_ne_top⟩

/-- A node number that is the node `n` when read signed is left alone by "add 500 000 if negative". -/
theorem wrap_of_toInt_eq (v : BitVec 32) (n : Fin 500000) (hv : v.toInt = (n.val : Int)) :
    Scalar.select (IntOp.cmpi .slt v 0#32) (IntOp.addi v 500000#32) v = v := by
  unfold Scalar.select IntOp.cmpi
  have hns : v.slt 0#32 = false := by
    rw [BitVec.slt_eq_decide]
    have : ¬ v.toInt < (0#32 : BitVec 32).toInt := by
      rw [hv]; show ¬ ((n.val : Int) < 0); omega
    exact decide_eq_false this
  have h0 : ¬ BitVec.ofBool (v.slt 0#32) = 1 := by rw [hns]; decide
  exact if_neg h0

/-- …and clamping it into `[0, 499 999]` gives `n`. -/
theorem clamp_of_toInt_eq (v : BitVec 32) (n : Fin 500000) (hv : v.toInt = (n.val : Int)) :
    min v.toInt.toNat (500000 - 1) = n.val := by
  rw [hv]
  have := n.isLt
  show min (n.val : Int).toNat 499999 = n.val
  rw [Int.toNat_natCast]
  omega

end Cert.LibNodeFactor

end
-- ==== Proof.ZReal.lean ====
/-
  Every entry of the node features computed by the two-layer graph convolution is a real number.

  The features are built from the embedding table, the two weight matrices and the two bias vectors by operations
  that keep real entries real:
    * looking entries up (a gathered entry is one of the operand's entries),
    * finite sums of products (the two matrix products and the two segment sums),
    * adding a bias and taking the maximum with zero,
    * multiplying by the edge weight, a product of two normalising factors.
  The normalising factor `if d > 0 then 1/√d else 0` of a degree `d` is a real whatever extended real `d` is: it is
  never negative and never `⊤`. So nothing has to be known about the degrees, nor about the integer inputs.
-/
import proofs.«126523_j28767690948710_1_alg».proof.Proof.RefRead
import proofs.«126523_j28767690948710_1_alg».proof.Proof.LibRealEntries
import proofs.«126523_j28767690948710_1_alg».proof.Proof.LibNodeFactor

noncomputable section

namespace Cert.ZReal

open Cert.ReferenceIdeal Cert.ReferenceIdeal.ReadP Idealize.ShloMosaic

/-! ## Reals among the extended reals -/

/-- A product of two reals is a real. -/
theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

/-- A sum of two reals is a real. -/
theorem real_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

/-- The larger of two reals is a real: it is one of the two. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The zero word is the real 0. -/
theorem real_zero_word : ∃ r : ℝ, Ideal.ofBits .f32 0x00000000#32 = (r : EReal) :=
  ⟨0, by rw [Ideal.ofBits_zero_f32]; rfl⟩

/-- An extended real that is neither negative nor `⊤` is a real. -/
theorem real_of_bounds {y : EReal} (h : 0 ≤ y ∧ y ≠ ⊤) : ∃ r : ℝ, y = (r : EReal) := by
  obtain ⟨h0, ht⟩ := h
  induction y using EReal.rec with
  | bot => exact absurd h0 (by simp)
  | coe r => exact ⟨r, rfl⟩
  | top => exact absurd rfl ht

/-! ## The two index-driven operations -/

/-- A gathered entry is one of the operand's entries, so a gather of an array of reals is an array of reals. -/
theorem gather_real {s si t : Shape} {w : Nat} (d : GatherDims s si t) (x : s.Idx → EReal) (idx : IVec si w)
    (hx : ∀ i, ∃ r : ℝ, x i = (r : EReal)) :
    ∀ j, ∃ r : ℝ, Host.gather d x idx j = (r : EReal) :=
  fun j => hx (d.operandIdx j idx)

/-- An accumulating scatter of real updates into a real operand is real: each entry is the operand's entry plus a
    finite sum of update entries. -/
theorem scatterAdd_real {s si u : Shape} {w : Nat} (d : ScatterDims s si u) (x : s.Idx → EReal) (idx : IVec si w)
    (upd : u.Idx → EReal) (hx : ∀ i, ∃ r : ℝ, x i = (r : EReal)) (hu : ∀ j, ∃ r : ℝ, upd j = (r : EReal)) :
    ∀ i, ∃ r : ℝ, Host.scatterAdd (F := Ideal) (φ := .f32) d x idx upd i = (r : EReal) := by
  intro i
  show ∃ r : ℝ, Ideal.hostScatterAdd d x idx upd i = (r : EReal)
  unfold Ideal.hostScatterAdd
  exact real_add (hx i) (Cert.LibRealEntries.sum_real _ _ hu)

/-- The normalising factor of any extended real `d` is a real. -/
theorem factor_real (d : EReal) :
    ∃ r : ℝ, Scalar.select (Ideal.cmp .ogt d (Ideal.ofBits .f32 0x00000000#32)) (Ideal.rsqrt d)
      (Ideal.ofBits .f32 0x00000000#32) = (r : EReal) :=
  real_of_bounds (Cert.LibNodeFactor.factor_bounds d)

/-! ## The first layer -/

section
variable (x0 : (⟨S50000x1, .i32⟩ : BufTy).Contents (Elt Ideal)) (x1 : (⟨S2x800000, .i32⟩ : BufTy).Contents (Elt Ideal))
  (x3 : (⟨S4096x128, .f32⟩ : BufTy).Contents (Elt Ideal)) (x4 : (⟨S128x256, .f32⟩ : BufTy).Contents (Elt Ideal))
  (x5 : (⟨S256, .f32⟩ : BufTy).Contents (Elt Ideal)) (x6 : (⟨S256x128, .f32⟩ : BufTy).Contents (Elt Ideal))
  (x7 : (⟨S128, .f32⟩ : BufTy).Contents (Elt Ideal))

/-- The looked-up embedding rows are real. -/
theorem v7_real (h3 : ∀ i, ∃ r : ℝ, x3 i = (r : EReal)) :
    ∀ i, ∃ r : ℝ, val_main_v7 (F := Ideal) x0 x3 i = (r : EReal) := by
  unfold val_main_v7
  exact gather_real _ x3 _ h3

/-- Their product with the first weight matrix is real. -/
theorem v8_real (h3 : ∀ i, ∃ r : ℝ, x3 i = (r : EReal)) (h4 : ∀ i, ∃ r : ℝ, x4 i = (r : EReal)) :
    ∀ i, ∃ r : ℝ, val_main_v8 (F := Ideal) x0 x3 x4 i = (r : EReal) := by
  intro i
  rw [val_main_v8_apply]
  exact Cert.LibRealEntries.sum_real _ _ (fun k => real_mul (v7_real x0 x3 h3 _) (h4 _))

/-- The normalising factor of each node is real. -/
theorem v23_real : ∀ i, ∃ r : ℝ, val_main_v23 (F := Ideal) x1 i = (r : EReal) := by
  intro i
  rw [val_main_v23_apply, val_main_v21_apply, val_main_v22_apply, val_main_call0_v1_apply, val_main_call0_v0_apply,
    val_main_cst_3_apply, val_main_v20_apply, val_main_cst_2_apply]
  generalize val_main_v19 (F := Ideal) x1 i = d
  rw [Ideal.cmpf_def, Ideal.hostUnary_rsqrt_def, Ideal.ofBits_def]
  exact factor_real d

/-- The factor looked up at each edge's source is real. -/
theorem v30_real : ∀ i, ∃ r : ℝ, val_main_v30 (F := Ideal) x1 i = (r : EReal) := by
  unfold val_main_v30
  exact gather_real _ _ _ (v23_real x1)

/-- The factor looked up at each edge's target is real. -/
theorem v37_real : ∀ i, ∃ r : ℝ, val_main_v37 (F := Ideal) x1 i = (r : EReal) := by
  unfold val_main_v37
  exact gather_real _ _ _ (v23_real x1)

/-- The edge weight, the product of the two factors, is real. -/
theorem v38_real : ∀ i, ∃ r : ℝ, val_main_v38 (F := Ideal) x1 i = (r : EReal) := by
  intro i
  rw [val_main_v38_apply, Ideal.mulf_def]
  exact real_mul (v30_real x1 i) (v37_real x1 i)

/-- The edge weight repeated along the feature axis is real. -/
theorem v47_real : ∀ i, ∃ r : ℝ, val_main_v47 (F := Ideal) x1 i = (r : EReal) := by
  intro i
  rw [val_main_v47_apply, val_main_v46_apply]
  exact v38_real x1 _

/-- The rows looked up at each edge's source are real. -/
theorem v45_real (h3 : ∀ i, ∃ r : ℝ, x3 i = (r : EReal)) (h4 : ∀ i, ∃ r : ℝ, x4 i = (r : EReal)) :
    ∀ i, ∃ r : ℝ, val_main_v45 (F := Ideal) x0 x1 x3 x4 i = (r : EReal) := by
  unfold val_main_v45
  exact gather_real _ _ _ (v8_real x0 x3 x4 h3 h4)

/-- The weighted messages are real. -/
theorem v48_real (h3 : ∀ i, ∃ r : ℝ, x3 i = (r : EReal)) (h4 : ∀ i, ∃ r : ℝ, x4 i = (r : EReal)) :
    ∀ i, ∃ r : ℝ, val_main_v48 (F := Ideal) x0 x1 x3 x4 i = (r : EReal) := by
  intro i
  rw [val_main_v48_apply, Ideal.mulf_def]
  exact real_mul (v45_real x0 x1 x3 x4 h3 h4 i) (v47_real x1 i)

/-- The array of zeros the messages are summed into is real. -/
theorem v49_real : ∀ i, ∃ r : ℝ, val_main_v49 (F := Ideal) i = (r : EReal) := by
  intro i
  rw [val_main_v49_apply, val_main_cst_10_apply, Ideal.ofBits_def]
  exact real_zero_word

/-- The messages summed at each edge's target are real. -/
theorem v51_real (h3 : ∀ i, ∃ r : ℝ, x3 i = (r : EReal)) (h4 : ∀ i, ∃ r : ℝ, x4 i = (r : EReal)) :
    ∀ i, ∃ r : ℝ, val_main_v51 (F := Ideal) x0 x1 x3 x4 i = (r : EReal) := by
  unfold val_main_v51
  exact scatterAdd_real _ _ _ _ v49_real (v48_real x0 x1 x3 x4 h3 h4)

/-- The first bias repeated along the node axis is real. -/
theorem v53_real (h5 : ∀ i, ∃ r : ℝ, x5 i = (r : EReal)) :
    ∀ i, ∃ r : ℝ, val_main_v53 (F := Ideal) x5 i = (r : EReal) := by
  intro i
  rw [val_main_v53_apply, val_main_v52_apply]
  exact h5 _

/-- The sums plus the bias are real. -/
theorem v54_real (h3 : ∀ i, ∃ r : ℝ, x3 i = (r : EReal)) (h4 : ∀ i, ∃ r : ℝ, x4 i = (r : EReal))
    (h5 : ∀ i, ∃ r : ℝ, x5 i = (r : EReal)) :
    ∀ i, ∃ r : ℝ, val_main_v54 (F := Ideal) x0 x1 x3 x4 x5 i = (r : EReal) := by
  intro i
  rw [val_main_v54_apply, Ideal.addf_def]
  exact real_add (v51_real x0 x1 x3 x4 h3 h4 i) (v53_real x5 h5 i)

/-- Their maximum with zero is real. -/
theorem v55_real (h3 : ∀ i, ∃ r : ℝ, x3 i = (r : EReal)) (h4 : ∀ i, ∃ r : ℝ, x4 i = (r : EReal))
    (h5 : ∀ i, ∃ r : ℝ, x5 i = (r : EReal)) :
    ∀ i, ∃ r : ℝ, val_main_v55 (F := Ideal) x0 x1 x3 x4 x5 i = (r : EReal) := by
  intro i
  rw [val_main_v55_apply, Ideal.maximumf_def, val_main_call1_v0_apply, val_main_call1_cst_apply, Ideal.ofBits_def]
  exact real_max (v54_real x0 x1 x3 x4 x5 h3 h4 h5 i) real_zero_word

/-! ## The second layer -/

/-- The product with the second weight matrix is real. -/
theorem v56_real (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) :
    ∀ i, ∃ r : ℝ, val_main_v56 (F := Ideal) x0 x1 x3 x4 x5 x6 i = (r : EReal) := by
  intro i
  rw [val_main_v56_apply]
  exact Cert.LibRealEntries.sum_real _ _ (fun k => real_mul (v55_real x0 x1 x3 x4 x5 h3 h4 h5 _) (h6 _))

/-- The recomputed normalising factor of each node is real. -/
theorem v71_real : ∀ i, ∃ r : ℝ, val_main_v71 (F := Ideal) x1 i = (r : EReal) := by
  intro i
  rw [val_main_v71_apply, val_main_v69_apply, val_main_v70_apply, val_main_call2_v1_apply, val_main_call2_v0_apply,
    val_main_cst_14_apply, val_main_v68_apply, val_main_cst_13_apply]
  generalize val_main_v67 (F := Ideal) x1 i = d
  rw [Ideal.cmpf_def, Ideal.hostUnary_rsqrt_def, Ideal.ofBits_def]
  exact factor_real d

/-- The factor looked up at each edge's source is real. -/
theorem v78_real : ∀ i, ∃ r : ℝ, val_main_v78 (F := Ideal) x1 i = (r : EReal) := by
  unfold val_main_v78
  exact gather_real _ _ _ (v71_real x1)

/-- The factor looked up at each edge's target is real. -/
theorem v85_real : ∀ i, ∃ r : ℝ, val_main_v85 (F := Ideal) x1 i = (r : EReal) := by
  unfold val_main_v85
  exact gather_real _ _ _ (v71_real x1)

/-- The recomputed edge weight is real. -/
theorem v86_real : ∀ i, ∃ r : ℝ, val_main_v86 (F := Ideal) x1 i = (r : EReal) := by
  intro i
  rw [val_main_v86_apply, Ideal.mulf_def]
  exact real_mul (v78_real x1 i) (v85_real x1 i)

/-- The edge weight repeated along the feature axis is real. -/
theorem v95_real : ∀ i, ∃ r : ℝ, val_main_v95 (F := Ideal) x1 i = (r : EReal) := by
  intro i
  rw [val_main_v95_apply, val_main_v94_apply]
  exact v86_real x1 _

/-- The rows looked up at each edge's source are real. -/
theorem v93_real (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) :
    ∀ i, ∃ r : ℝ, val_main_v93 (F := Ideal) x0 x1 x3 x4 x5 x6 i = (r : EReal) := by
  unfold val_main_v93
  exact gather_real _ _ _ (v56_real x0 x1 x3 x4 x5 x6 h3 h4 h5 h6)

/-- The weighted messages are real. -/
theorem v96_real (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) :
    ∀ i, ∃ r : ℝ, val_main_v96 (F := Ideal) x0 x1 x3 x4 x5 x6 i = (r : EReal) := by
  intro i
  rw [val_main_v96_apply, Ideal.mulf_def]
  exact real_mul (v93_real x0 x1 x3 x4 x5 x6 h3 h4 h5 h6 i) (v95_real x1 i)

/-- The array of zeros the messages are summed into is real. -/
theorem v97_real : ∀ i, ∃ r : ℝ, val_main_v97 (F := Ideal) i = (r : EReal) := by
  intro i
  rw [val_main_v97_apply, val_main_cst_21_apply, Ideal.ofBits_def]
  exact real_zero_word

/-- The messages summed at each edge's target are real. -/
theorem v99_real (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) :
    ∀ i, ∃ r : ℝ, val_main_v99 (F := Ideal) x0 x1 x3 x4 x5 x6 i = (r : EReal) := by
  unfold val_main_v99
  exact scatterAdd_real _ _ _ _ v97_real (v96_real x0 x1 x3 x4 x5 x6 h3 h4 h5 h6)

/-- The second bias repeated along the node axis is real. -/
theorem v101_real (h7 : ∀ i, ∃ r : ℝ, x7 i = (r : EReal)) :
    ∀ i, ∃ r : ℝ, val_main_v101 (F := Ideal) x7 i = (r : EReal) := by
  intro i
  rw [val_main_v101_apply, val_main_v100_apply]
  exact h7 _

end

/-- Every entry of the node features is a real number. -/
theorem z_real
    (x0 : (⟨S50000x1, .i32⟩ : BufTy).Contents (Elt Ideal)) (x1 : (⟨S2x800000, .i32⟩ : BufTy).Contents (Elt Ideal))
    (x3 : (⟨S4096x128, .f32⟩ : BufTy).Contents (Elt Ideal)) (x4 : (⟨S128x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal))
    (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal)) (h7 : ∀ i, ∃ r : ℝ, x7 i = (r : EReal)) :
    ∀ i : S50000x128.Idx, ∃ r : ℝ, val_main_v102 (F := Ideal) x0 x1 x3 x4 x5 x6 x7 i = (r : EReal) := by
  intro i
  rw [val_main_v102_apply, Ideal.addf_def]
  exact real_add (v99_real x0 x1 x3 x4 x5 x6 h3 h4 h5 h6 i) (v101_real x7 h7 i)

end Cert.ZReal

end
-- ==== Proof.PreReal.lean ====
/-
  From "every float argument passes the finiteness test" to "every entry of every float argument is a real number".

  The test of one argument x is all(|x| < +∞): the absolute value max x (-x) of each entry is compared with the word
  of +∞, and the comparison bits are folded together by "and", starting from 1. The seven tests are and-ed into one
  bit. If that bit is 1, each of the seven folds is 1, so each comparison bit is 1, so each entry lies strictly
  between -∞ and +∞: it is a real.

    * `real_of_all`: one such test, over any shape.
    * `args_real`: the seven tests of the printed predicate together.
-/
import Idealize.ShloMosaic.Lib.ReduceAll
import Idealize.ShloMosaic.Lib.ValueIdx
import Idealize.ShloMosaic.PureOps.Ideal
import proofs.«126523_j28767690948710_1_alg».proof.Pre_finite_inputs
import proofs.«126523_j28767690948710_1_alg».proof.Proof.LibRealEntries

noncomputable section

namespace Cert.PreReal

open Cert.Pre_finite_inputs Idealize.ShloMosaic

/-- The shape of a scalar has one index: there is no axis to give a coordinate on. -/
instance : Subsingleton S_.Idx := ⟨fun a b => funext fun d => d.elim0⟩

/-- One test all(|x| < +∞) that came out 1: every entry of x is a real. The fold by "and" being 1 makes each
    comparison bit 1; the bit at i compares max (x i) (-(x i)) with the word of +∞. -/
theorem real_of_all {s : Shape} (x : FVec Ideal s .f32) (hb : S_.BroadcastsInDim s (![] : Fin 0 → Fin s.rank))
    {axes : List (Fin s.rank)} (hr : s.ReducesTo axes S_) (hu : 0 < S_.numel) (j : S_.Idx)
    (e : Host.reduce IntOp.andi
          (cmpf .olt (Host.absf x) (broadcastInDim s ![] hb (constant S_ .f32 0x7F800000#32)))
          (constantI S_ 1 1#1) hr hu j = 1#1) (i : s.Idx) : ∃ r : ℝ, x i = (r : EReal) := by
  have hi := Host.reduce_andi_all _ _ hr hu j e i
  exact Cert.LibRealEntries.real_of_cmp (x i) hi

variable [Facts]

/-- The printed predicate is 1 at its one index: every entry of each of the seven float arguments is a real. -/
theorem args_real (x0 : IVec S50000x1 32) (x1 : IVec S2x800000 32) (x2 : IVec S1024 32)
    (x3 : FVec Ideal S4096x128 .f32) (x4 : FVec Ideal S128x256 .f32) (x5 : FVec Ideal S256 .f32)
    (x6 : FVec Ideal S256x128 .f32) (x7 : FVec Ideal S128 .f32) (x8 : FVec Ideal S128x4096 .f32)
    (x9 : FVec Ideal S4096 .f32)
    (h : Cert.Pre_finite_inputs.fn (F := Ideal) x0 x1 x2 x3 x4 x5 x6 x7 x8 x9 = fun _ => 1#1) :
    (∀ i, ∃ r : ℝ, x3 i = (r : EReal)) ∧ (∀ i, ∃ r : ℝ, x4 i = (r : EReal)) ∧ (∀ i, ∃ r : ℝ, x5 i = (r : EReal)) ∧
    (∀ i, ∃ r : ℝ, x6 i = (r : EReal)) ∧ (∀ i, ∃ r : ℝ, x7 i = (r : EReal)) ∧ (∀ i, ∃ r : ℝ, x8 i = (r : EReal)) ∧
    (∀ i, ∃ r : ℝ, x9 i = (r : EReal)) := by
  have h0 := congrFun h ValueIdx.ix0
  dsimp only [fn, fn_part1, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨e3, e4⟩ := IntOp.andi_eq_one.1 h0
  exact ⟨real_of_all x3 _ _ _ _ e3, real_of_all x4 _ _ _ _ e4, real_of_all x5 _ _ _ _ e5, real_of_all x6 _ _ _ _ e6,
    real_of_all x7 _ _ _ _ e7, real_of_all x8 _ _ _ _ e8, real_of_all x9 _ _ _ _ e9⟩

end Cert.PreReal

end
-- ==== Proof.MeanLinear.lean ====
/-
  The mean over 1024 rows commutes with a linear map plus a constant, over the reals.

  For real numbers z p k (1024 rows p of 128 entries k), w k and b,

      ∑ k, ((0 + ∑ p, z p k) / 1024) * w k + b  =  (0 + ∑ p, ((∑ k, z p k * w k) + b)) / 1024 :

  both sides are (∑ p, ∑ k, z p k * w k) / 1024 + b, the right one because the constant b summed 1024 times and
  divided by 1024 is b. The statement is over extended reals whose every entry is a real, with the zero and the
  divisor spelled as 32-bit words and the quotient as the extended reals' division; it is brought down to the real
  identity by reading the two words (0 and 1024), by the division by a nonzero real being the product with the
  reciprocal, and by pushing the inclusion of the reals out of the sums, products and additions.

    * `ofBits_1024`: the word 0x44800000 is the real 1024.
    * `coe_sum`: a finite sum of included reals is the included sum.
    * `mean_linear_real`: the identity over the reals.
    * `mean_linear`: the identity over extended reals with real entries.
-/
import Idealize.ShloMosaic.PureOps.Ideal
import Idealize.ShloMosaic.PureOps.Ideal.Laws

noncomputable section

namespace Cert.MeanLinear

open Idealize.ShloMosaic

/-- The word 0x44800000 (sign 0, exponent 137, fraction 0) is 2 ^ 23 * 2 ^ (137 - 127 - 23) = 1024. -/
theorem ofBits_1024 : Ideal.ofBits .f32 0x44800000#32 = ((1024 : ℝ) : EReal) := by
  simp [Ideal.ofBits, Ideal.ieee, -EReal.coe_mul]; norm_num

/-- A finite sum of reals, each taken as an extended real, is the real sum taken as an extended real. -/
theorem coe_sum {ι : Type} (s : Finset ι) (f : ι → ℝ) :
    ∑ i ∈ s, ((f i : ℝ) : EReal) = ((∑ i ∈ s, f i : ℝ) : EReal) := by
  classical
  refine Finset.induction_on s (by simp) ?_
  intro a t ha ih
  rw [Finset.sum_insert ha, Finset.sum_insert ha, ih, EReal.coe_add]

/-- The identity over the reals, division written as the product with 1 / 1024. Each side is
    (∑ p, ∑ k, z p k * w k) * (1 / 1024) + b. -/
theorem mean_linear_real (z : Fin 1024 → Fin 128 → ℝ) (w : Fin 128 → ℝ) (b : ℝ) :
    (∑ k : Fin 128, (∑ p : Fin 1024, z p k) * (1 / 1024) * w k) + b
      = (∑ p : Fin 1024, ((∑ k : Fin 128, z p k * w k) + b)) * (1 / 1024) := by
  have hk : ∀ k : Fin 128, (∑ p : Fin 1024, z p k) * (1 / 1024) * w k
      = (∑ p : Fin 1024, z p k * w k) * (1 / 1024) := fun k => by
    rw [mul_right_comm, Finset.sum_mul]
  simp only [hk]
  rw [← Finset.sum_mul, Finset.sum_comm, Finset.sum_add_distrib, Finset.sum_const, Finset.card_univ,
    Fintype.card_fin, add_mul, nsmul_eq_mul]
  congr 1
  push_cast
  ring

/-- The mean over the 1024 rows of Z, taken entry by entry, then the linear map W and the constant B, equals the mean
    over the rows of (the linear map of the row, plus B): every number involved being a real. -/
theorem mean_linear (Z : Fin 1024 → Fin 128 → EReal) (W : Fin 128 → EReal) (B : EReal)
    (hZ : ∀ p k, ∃ r : ℝ, Z p k = (r : EReal)) (hW : ∀ k, ∃ r : ℝ, W k = (r : EReal)) (hB : ∃ r : ℝ, B = (r : EReal)) :
    (∑ k : Fin 128, Ideal.div (Ideal.ofBits .f32 0x00000000#32 + ∑ p : Fin 1024, Z p k) (Ideal.ofBits .f32 0x44800000#32) * W k) + B
      = Ideal.div (Ideal.ofBits .f32 0x00000000#32 + ∑ p : Fin 1024, ((∑ k : Fin 128, Z p k * W k) + B)) (Ideal.ofBits .f32 0x44800000#32) := by
  choose z hz using hZ
  choose w hw using hW
  obtain ⟨b, rfl⟩ := hB
  have hZ' : Z = fun p k => ((z p k : ℝ) : EReal) := funext fun p => funext fun k => hz p k
  have hW' : W = fun k => ((w k : ℝ) : EReal) := funext hw
  subst hZ' hW'
  rw [Ideal.ofBits_zero_f32, ofBits_1024]
  simp only [zero_add, Ideal.div_coe (by norm_num : (1024 : ℝ) ≠ 0), coe_sum, ← EReal.coe_mul, ← EReal.coe_add]
  exact congrArg _ (mean_linear_real z w b)

end Cert.MeanLinear

end
-- ==== Proof.lean ====
/-
  Equivalence over the extended reals of a two-layer graph-convolution classifier with its reference.

  Both programs look node embeddings up, h = emb[x]; append the self loops to the edge list; weigh edge e by
  dinv[row e] · dinv[col e], where dinv is the inverse square root of a node's in-degree (zero where the degree is not
  positive); and apply two layers "multiply by a weight matrix, sum the weighted messages at their target node, add a
  bias" (with the positive part after the first). The kernel multiplies in two pipelined regions, 2000 rows at a grid
  point, the operands narrowed to bf16 — the identity at the ideal values — and accumulated into zero: each region's
  output array is the whole product, which is the reference's `dot_general`. So both programs hold the same node
  features z, the reference's stage `val_main_v102` of the arguments.

  They differ in the last step. The reference classifies every node, z · Wc + bc, and averages the rows at the 1024
  looked-up positions; the kernel averages the looked-up rows of z first and classifies the one averaged row in a
  third region:

      ( ∑ k, ((0 + ∑ p, z[node p, k]) / 1024) · Wc[k, c] ) + bc[c]  =  ( 0 + ∑ p, ((∑ k, z[node p, k] · Wc[k, c]) + bc[c]) ) / 1024.

  On the extended reals this is distributivity and needs every number to be finite. The precondition makes every entry
  of emb, W1, b1, W2, b2, Wc, bc a real; z is then real entry by entry (a looked-up entry is an entry; a finite sum of
  products of reals is real; the edge weight is a real whatever the degree; adding a bias and taking a positive part keep
  reals), and the identity is the mean's linearity on the reals.

  The frames: the kernel's two are the generated frame theorems; the reference's is its run with the result dropped.
  The ideal pass rewrote nothing, so `preserves` is `True`.
-/
import proofs.«126523_j28767690948710_1_alg».proof.Defs
import proofs.«126523_j28767690948710_1_alg».proof.Proof.Gen.Kernel
import proofs.«126523_j28767690948710_1_alg».proof.Proof.Gen.Kernel.Skeleton
import proofs.«126523_j28767690948710_1_alg».proof.Proof.Gen.Kernel.Launch
import proofs.«126523_j28767690948710_1_alg».proof.Proof.Gen.Kernel.Points
import proofs.«126523_j28767690948710_1_alg».proof.Proof.Gen.Kernel.Frame
import proofs.«126523_j28767690948710_1_alg».proof.Proof.Gen.KernelIdeal
import proofs.«126523_j28767690948710_1_alg».proof.Proof.Gen.KernelIdeal.Skeleton
import proofs.«126523_j28767690948710_1_alg».proof.Proof.Gen.KernelIdeal.Launch
import proofs.«126523_j28767690948710_1_alg».proof.Proof.Gen.KernelIdeal.Points
import proofs.«126523_j28767690948710_1_alg».proof.Proof.Gen.KernelIdeal.Frame
import proofs.«126523_j28767690948710_1_alg».proof.Proof.Gen.ReferenceIdeal
import proofs.«126523_j28767690948710_1_alg».proof.Proof.Gen.Pre_finite_inputs
import proofs.«126523_j28767690948710_1_alg».proof.Proof.KernelRun
import proofs.«126523_j28767690948710_1_alg».proof.Proof.KernelValue
import proofs.«126523_j28767690948710_1_alg».proof.Proof.RefValue
import proofs.«126523_j28767690948710_1_alg».proof.Proof.RefTail
import proofs.«126523_j28767690948710_1_alg».proof.Proof.ZReal
import proofs.«126523_j28767690948710_1_alg».proof.Proof.PreReal
import proofs.«126523_j28767690948710_1_alg».proof.Proof.MeanLinear
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.RefValue.ref_run m ρ)

/-- From memories agreeing on the arguments, of which the kernel's are finite, both idealized programs end with the
    same result: the kernel's last boundary contents at its result buffer. Entry by entry the reference's mean of
    classified rows is the kernel's classified mean row, every number being a real. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W9 m ρ c (Proc.devRef .tc Cert.KernelIdeal.main_v85),
    Cert.KernelIdeal.RunValue.run_value (F := Ideal) m ρ, ?_⟩
  refine (θ_run Cert.ReferenceIdeal.defs _ _).mono (fun _ h c => ⟨(h c).1.trans ?_, (h c).2⟩) (Cert.RefValue.ref_run m' ρ')
  obtain ⟨e0, e1, e2, e3, e4, e5, e6, e7, e8, e9⟩ := hagree c
  rw [e0, e1, e2, e3, e4, e5, e6, e7, e8, e9]
  obtain ⟨h3, h4, h5, h6, h7, h8, h9⟩ := Cert.PreReal.args_real _ _ _ _ _ _ _ _ _ _ (hpre c)
  refine funext fun j => ?_
  rw [Cert.RefTail.ref_tail]
  refine Eq.trans ?_ (Cert.KernelValue.result_apply m ρ c j).symm
  exact (Cert.MeanLinear.mean_linear
    (fun p k => Cert.ReferenceIdeal.ReadP.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (ix2 (Cert.Spec.posNode (m ((c.tc : Thread Cert.KernelIdeal.nD Cert.KernelIdeal.τ).loc Cert.KernelIdeal.main_arg2)) p) k))
    (fun k => (m ((c.tc : Thread Cert.KernelIdeal.nD Cert.KernelIdeal.τ).loc Cert.KernelIdeal.main_arg8)) (ix2 k (j 1))) ((m ((c.tc : Thread Cert.KernelIdeal.nD Cert.KernelIdeal.τ).loc Cert.KernelIdeal.main_arg9)) (ix1 (j 1)))
    (fun p k => Cert.ZReal.z_real _ _ _ _ _ _ _ h3 h4 h5 h6 h7 _) (fun k => h8 _) (h9 _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
